-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x384 : Shape := ⟨2, ![50000, 384]⟩
abbrev S2x800000 : Shape := ⟨2, ![2, 800000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x384 : S_.BroadcastsInDim S50000x384 (![] : Fin 0 → Fin S50000x384.rank)
  reducesTo_S50000x384_S_d0_1 : S50000x384.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x384 .f32) (main_arg1 : IVec S2x800000 32) (main_arg2 : IVec S50000 32) (main_arg3 : FVec F S384x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S50000x384 .f32 := Host.absf main_arg0
  let main_cst : FVec F S_ .f32 := constant S_ .f32 0x7F800000#32
  let main_v1 : FVec F S50000x384 .f32 := broadcastInDim S50000x384 ![] bcast_S_S50000x384 main_cst
  let main_v2 : IVec S50000x384 1 := cmpf .olt main_v0 main_v1
  let main_c : IVec S_ 1 := constantI S_ 1 1#1
  let main_v3 : IVec S_ 1 := (fun x v => Host.reduce IntOp.andi x v reducesTo_S50000x384_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x384 : Shape := ⟨2, ![50000, 384]⟩
abbrev S2x800000 : Shape := ⟨2, ![2, 800000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S5000x384 : Shape := ⟨2, ![5000, 384]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S1x64 : Shape := ⟨2, ![1, 64]⟩
abbrev S64x64 : Shape := ⟨2, ![64, 64]⟩
abbrev S1x1 : Shape := ⟨2, ![1, 1]⟩

abbrev nBuf : Space → Nat
  | .hbm => 188
  | .vmem => 23
  | .smem => 0
  | _ => 0

abbrev hbmTy0_0 (i : Nat) : BufTy := match i % 128 with
  | 0 => ⟨S50000x384, .f32⟩
  | 1 => ⟨S2x800000, .i32⟩
  | 2 => ⟨S50000, .i32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x384, .f32⟩

abbrev hbmTy0_1 (i : Nat) : BufTy := match i % 128 with
  | 0 => ⟨S800000, .i32⟩
  | 1 => ⟨S800000x1, .i32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000, .f32⟩
  | 42 => ⟨S_, .f32⟩
  | 43 => ⟨S64, .f32⟩
  | 44 => ⟨S50000x1, .i32⟩
  | 45 => ⟨S64, .f32⟩
  | 46 => ⟨S_, .f32⟩
  | 47 => ⟨S64x128, .f32⟩
  | 48 => ⟨S50000x1, .i32⟩
  | 49 => ⟨S64x128, .f32⟩
  | 50 => ⟨S_, .f32⟩
  | 51 => ⟨S64, .f32⟩
  | 52 => ⟨S64, .f32⟩
  | 53 => ⟨S64x1, .f32⟩
  | 54 => ⟨S64x128, .f32⟩
  | 55 => ⟨S64x128, .f32⟩
  | 56 => ⟨S1x64, .f32⟩
  | 57 => ⟨S64x64, .f32⟩
  | 58 => ⟨S1x1, .f32⟩
  | 59 => ⟨S64x1, .f32⟩
  | _ => ⟨S50000x384, .f32⟩

abbrev hbmTy (i : Nat) : BufTy := match i / 128 with
  | 0 => hbmTy0_0 i
  | 1 => hbmTy0_1 i
  | _ => ⟨S50000x384, .f32⟩

abbrev bufTy : (tb : Table) → Fin (tcTables nBuf tb) → BufTy
  | .hbm, ⟨i, _⟩ => hbmTy i
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S64x128, .f32⟩
  | .local _ .vmem, ⟨16, _⟩ => ⟨S128x64, .f32⟩
  | .local _ .vmem, ⟨17, _⟩ => ⟨S1x64, .f32⟩
  | .local _ .vmem, ⟨18, _⟩ => ⟨S64x64, .f32⟩
  | .local _ .vmem, ⟨19, _⟩ => ⟨S64x64, .f32⟩
  | .local _ .vmem, ⟨20, _⟩ => ⟨S64x1, .f32⟩
  | .local _ .vmem, ⟨21, _⟩ => ⟨S1x1, .f32⟩
  | .local _ .vmem, ⟨22, _⟩ => ⟨S64x1, .f32⟩
  | _, _ => ⟨S50000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call2_cst : Ref sig .tc := ⟨.hbm, 165, rfl⟩
abbrev main_call2_v0 : Ref sig .tc := ⟨.hbm, 166, rfl⟩
abbrev main_v124 : Ref sig .tc := ⟨.hbm, 167, rfl⟩
abbrev main_cst_22 : Ref sig .tc := ⟨.hbm, 168, rfl⟩
abbrev main_v125 : Ref sig .tc := ⟨.hbm, 169, rfl⟩
abbrev main_cst_23 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_24 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_25 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg3_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem3_0 : DmaSem sig := 18
abbrev cc4_sem0_0 : DmaSem sig := 19
abbrev cc4_sem1_0 : DmaSem sig := 20
abbrev cc4_sem2_0 : DmaSem sig := 21
abbrev cc4_sem3_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x384_S5000x384_0_0 : ∀ a, (![0, 0] : Fin 2 → Nat) a + S5000x384.size a ≤ S5000x384.size a
  h_S5000x384 : 0 < S5000x384.numel
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S50000_S800000x1_S800000_n_0_0_1_wf : ScatterDims.WF S50000 S800000x1 S800000 [] [0] [0] 1
  dot_S5000x384_S384x128_S5000x128_1_0_0_1_n_n_wf : DotDims.WF S5000x384 S384x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S50000x384.size a
  hwx0_0 : ∀ i : grid0.Coords, EltTy.bits .f32 = 32 ∨ (Rect.block (s := S50000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v86) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v136) S64x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v137) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v138) S64x64.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v138) S64x64.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v139) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v140) S64x1.size cc4_transform_3 reads4_3 true false 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x384 : Shape := ⟨2, ![50000, 384]⟩
abbrev S2x800000 : Shape := ⟨2, ![2, 800000]⟩
abbrev S50000 : Shape := ⟨1, ![50000]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S64x128 : Shape := ⟨2, ![64, 128]⟩
abbrev S64x64 : Shape := ⟨2, ![64, 64]⟩
abbrev S1x64 : Shape := ⟨2, ![1, 64]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S50000x384, .f32⟩
  | 1 => ⟨S2x800000, .i32⟩
  | 2 => ⟨S50000, .i32⟩
  | 3 => ⟨S384x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000, .f32⟩
  | 93 => ⟨S800000, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x1, .f32⟩
  | 104 => ⟨S800000x128, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000, .f32⟩
  | 111 => ⟨S50000x1, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x384, .f32⟩

abbrev hbmTy0_1 (i : Nat) : BufTy := match i % 128 with
  | 0 => ⟨S800000, .i32⟩
  | 1 => ⟨S800000x1, .i32⟩
  | 2 => ⟨S800000, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000, .f32⟩
  | 30 => ⟨S50000x1, .f32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S_, .f32⟩
  | 41 => ⟨S50000, .f32⟩
  | 42 => ⟨S_, .f32⟩
  | 43 => ⟨S64, .f32⟩
  | 44 => ⟨S50000x1, .i32⟩
  | 45 => ⟨S64, .f32⟩
  | 46 => ⟨S_, .f32⟩
  | 47 => ⟨S64x128, .f32⟩
  | 48 => ⟨S50000x1, .i32⟩
  | 49 => ⟨S64x128, .f32⟩
  | 50 => ⟨S_, .f32⟩
  | 51 => ⟨S64, .f32⟩
  | 52 => ⟨S64, .f32⟩
  | 53 => ⟨S64x1, .f32⟩
  | 54 => ⟨S64x128, .f32⟩
  | 55 => ⟨S64x128, .f32⟩
  | 56 => ⟨S64x64, .f32⟩
  | 57 => ⟨S1x64, .f32⟩
  | 58 => ⟨S64x64, .f32⟩
  | 59 => ⟨S64x64, .f32⟩
  | 60 => ⟨S_, .f32⟩
  | 61 => ⟨S64x64, .f32⟩
  | 62 => ⟨S64x64, .f32⟩
  | 63 => ⟨S64x1, .f32⟩
  | 64 => ⟨S1x1, .f32⟩
  | 65 => ⟨S64x1, .f32⟩
  | 66 => ⟨S64x1, .f32⟩
  | _ => ⟨S50000x384, .f32⟩

abbrev hbmTy (i : Nat) : BufTy := match i / 128 with
  | 0 => hbmTy0_0 i
  | 1 => hbmTy0_1 i
  | _ => ⟨S50000x384, .f32⟩

abbrev bufTy : (tb : Table) → Fin (tcTables nBuf tb) → BufTy
  | .hbm, ⟨i, _⟩ => hbmTy i
  | _, _ => ⟨S50000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_c_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_cst : Ref sig .tc := ⟨.hbm, 118, rfl⟩
abbrev main_call1_v0 : Ref sig .tc := ⟨.hbm, 119, rfl⟩
abbrev main_v86 : Ref sig .tc := ⟨.hbm, 120, rfl⟩
abbrev main_v87 : Ref sig .tc := ⟨.hbm, 121, rfl⟩
abbrev main_c_15 : Ref sig .tc := ⟨.hbm, 122, rfl⟩
abbrev main_v88 : Ref sig .tc := ⟨.hbm, 123, rfl⟩
abbrev main_v89 : Ref sig .tc := ⟨.hbm, 124, rfl⟩
abbrev main_c_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_17 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_19 : Ref sig .tc := ⟨.hbm, 141, rfl⟩
abbrev main_v103 : Ref sig .tc := ⟨.hbm, 142, rfl⟩
abbrev main_v104 : Ref sig .tc := ⟨.hbm, 143, rfl⟩
abbrev main_c_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_call2_cst : Ref sig .tc := ⟨.hbm, 165, rfl⟩
abbrev main_call2_v0 : Ref sig .tc := ⟨.hbm, 166, rfl⟩
abbrev main_v124 : Ref sig .tc := ⟨.hbm, 167, rfl⟩
abbrev main_cst_22 : Ref sig .tc := ⟨.hbm, 168, rfl⟩
abbrev main_v125 : Ref sig .tc := ⟨.hbm, 169, rfl⟩
abbrev main_cst_23 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_24 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_25 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_call3_cst : Ref sig .tc := ⟨.hbm, 188, rfl⟩
abbrev main_call3_v0 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S800000x1_S800000_n_0_0_1_wf : ScatterDims.WF S50000 S800000x1 S800000 [] [0] [0] 1
  dot_S50000x384_S384x128_S50000x128_1_0_0_1_n_n_wf : DotDims.WF S50000x384 S384x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.WholeRun.lean ====
/-
  The idealized kernel's whole run, with the result buffer named.

  The program is five regions among stretches of host operations. Run from any memory with zero counters, every
  weakly fair execution terminates without a fault, and at the end every unscoped buffer of each TensorCore holds the
  last boundary's contents: the fold of the host stretches and of each region's written-back arrays over the launch
  memory. Read at the result buffer this gives the program's result as that fold's value there; read at the argument
  buffers, which nothing writes, it gives the launch contents back.
-/
import proofs.«134181_j83004537962759_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. The segments' run is launched as for the frame claim;
    the last thread state holds every unscoped buffer at the last boundary's contents, and is read here at the result
    buffer as well as at the arguments. -/
theorem run : θ_run defs (onTc (τ := τ) (main (F := F))) ⟨m, fun _ => 0, ρ⟩ (fun r => ∀ c : Dev nD,
      r.2.mem ((c.tc : Thread nD τ).loc main_v140) = W14 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v140 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.WholeRun

end
-- ==== Proof.Normalisation.lean ====
/-
  The host operations before the first region, read against the reference's stages.

  Before the first matmul the program slices the two rows of the edge list (sources and destinations), counts the
  edges arriving at each node by a scatter-add of ones, adds one for the self-loop and takes the reciprocal square
  root: the normalisation `dis`. The reference performs the same operations on the same argument, so each of the
  three buffers later layers read — sources, destinations, `dis` — holds the reference's stage of that name as a
  function of the edge list.
-/
import proofs.«134181_j83004537962759_1_alg».proof.Proof.Gen.KernelIdeal.Frame
import proofs.«134181_j83004537962759_1_alg».proof.Proof.Gen.ReferenceIdeal.Read

set_option maxRecDepth 16384

noncomputable section

namespace Cert.KernelIdeal.Normalisation

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The edge sources, as the first region finds them. -/
theorem sources (c : Dev nD) :
    W1 (F := Ideal) m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

/-- The edge destinations. -/
theorem destinations (c : Dev nD) :
    W1 (F := Ideal) m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- The normalisation `dis = rsqrt (in-degree + 1)`. -/
theorem normalisation (c : Dev nD) :
    W1 (F := Ideal) m ρ c (Proc.devRef .tc main_v10) = Cert.ReferenceIdeal.Read.val_main_v10 (F := Ideal) (m ((c : Thread nD τ).loc main_arg1)) := by
  show StableHlo.after hostOps0 (W0 m ρ c) (Proc.devRef .tc main_v10) = _
  after_results_simp
  rfl

end Cert.KernelIdeal.Normalisation

end
-- ==== Proof.Carried.lean ====
/-
  Buffers that later parts of the program read unchanged.

  No host operation and no region writes an argument array, and none but the first stretch writes the three buffers
  computed from the edge list (sources, destinations, the normalisation). So at every later boundary of the program
  each of them still holds what it held when it was last written: an argument its launch contents, the three
  edge-list buffers the reference's stages of the edge list. Each step below is one of two facts: a region leaves
  every buffer that is not one of its windows' arrays as it found it, and a stretch of host operations leaves every
  buffer that none of its operations writes as it found it.
-/
import proofs.«134181_j83004537962759_1_alg».proof.Proof.Gen.KernelIdeal.Frame
import proofs.«134181_j83004537962759_1_alg».proof.Proof.Gen.ReferenceIdeal.Read
import proofs.«134181_j83004537962759_1_alg».proof.Proof.Normalisation

set_option maxRecDepth 16384

noncomputable section

namespace Cert.KernelIdeal.Carried

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer that none of the listed host operations writes keeps its contents across them: every operation's written
    buffer is a different reference. -/
macro "host_keeps" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

theorem step_arg0_1 (c : Dev nD) : W1 (F := Ideal) m ρ c (Proc.devRef .tc main_arg0) = W0 (F := Ideal) m ρ c (Proc.devRef .tc main_arg0) := by
  show StableHlo.after hostOps0 (W0 m ρ c) (Proc.devRef .tc main_arg0) = _
  host_keeps hostOps0
theorem step_arg3_1 (c : Dev nD) : W1 (F := Ideal) m ρ c (Proc.devRef .tc main_arg3) = W0 (F := Ideal) m ρ c (Proc.devRef .tc main_arg3) := by
  show StableHlo.after hostOps0 (W0 m ρ c) (Proc.devRef .tc main_arg3) = _
  host_keeps hostOps0
theorem step_arg4_2 (c : Dev nD) : W2 (F := Ideal) m ρ c (Proc.devRef .tc main_arg4) = W1 (F := Ideal) m ρ c (Proc.devRef .tc main_arg4) := W2_of_ne m ρ c main_arg4 (by decide)
theorem step_arg4_1 (c : Dev nD) : W1 (F := Ideal) m ρ c (Proc.devRef .tc main_arg4) = W0 (F := Ideal) m ρ c (Proc.devRef .tc main_arg4) := by
  show StableHlo.after hostOps0 (W0 m ρ c) (Proc.devRef .tc main_arg4) = _
  host_keeps hostOps0
theorem step_arg5_4 (c : Dev nD) : W4 (F := Ideal) m ρ c (Proc.devRef .tc main_arg5) = W3 (F := Ideal) m ρ c (Proc.devRef .tc main_arg5) := by
  show StableHlo.after hostOps1_1 (W3 m ρ c) (Proc.devRef .tc main_arg5) = _
  host_keeps hostOps1_1
theorem step_arg5_3 (c : Dev nD) : W3 (F := Ideal) m ρ c (Proc.devRef .tc main_arg5) = W2 (F := Ideal) m ρ c (Proc.devRef .tc main_arg5) := by
  show StableHlo.after hostOps1 (W2 m ρ c) (Proc.devRef .tc main_arg5) = _
  host_keeps hostOps1
theorem step_arg5_2 (c : Dev nD) : W2 (F := Ideal) m ρ c (Proc.devRef .tc main_arg5) = W1 (F := Ideal) m ρ c (Proc.devRef .tc main_arg5) := W2_of_ne m ρ c main_arg5 (by decide)
theorem step_arg5_1 (c : Dev nD) : W1 (F := Ideal) m ρ c (Proc.devRef .tc main_arg5) = W0 (F := Ideal) m ρ c (Proc.devRef .tc main_arg5) := by
  show StableHlo.after hostOps0 (W0 m ρ c) (Proc.devRef .tc main_arg5) = _
  host_keeps hostOps0
theorem step_arg6_5 (c : Dev nD) : W5 (F := Ideal) m ρ c (Proc.devRef .tc main_arg6) = W4 (F := Ideal) m ρ c (Proc.devRef .tc main_arg6) := W5_of_ne m ρ c main_arg6 (by decide)
theorem step_arg6_4 (c : Dev nD) : W4 (F := Ideal) m ρ c (Proc.devRef .tc main_arg6) = W3 (F := Ideal) m ρ c (Proc.devRef .tc main_arg6) := by
  show StableHlo.after hostOps1_1 (W3 m ρ c) (Proc.devRef .tc main_arg6) = _
  host_keeps hostOps1_1
theorem step_arg6_3 (c : Dev nD) : W3 (F := Ideal) m ρ c (Proc.devRef .tc main_arg6) = W2 (F := Ideal) m ρ c (Proc.devRef .tc main_arg6) := by
  show StableHlo.after hostOps1 (W2 m ρ c) (Proc.devRef .tc main_arg6) = _
  host_keeps hostOps1
theorem step_arg6_2 (c : Dev nD) : W2 (F := Ideal) m ρ c (Proc.devRef .tc main_arg6) = W1 (F := Ideal) m ρ c (Proc.devRef .tc main_arg6) := W2_of_ne m ρ c main_arg6 (by decide)
theorem step_arg6_1 (c : Dev nD) : W1 (F := Ideal) m ρ c (Proc.devRef .tc main_arg6) = W0 (F := Ideal) m ρ c (Proc.devRef .tc main_arg6) := by
  show StableHlo.after hostOps0 (W0 m ρ c) (Proc.devRef .tc main_arg6) = _
  host_keeps hostOps0
theorem step_arg7_7 (c : Dev nD) : W7 (F := Ideal) m ρ c (Proc.devRef .tc main_arg7) = W6 (F := Ideal) m ρ c (Proc.devRef .tc main_arg7) := by
  show StableHlo.after hostOps2_1 (W6 m ρ c) (Proc.devRef .tc main_arg7) = _
  host_keeps hostOps2_1
theorem step_arg7_6 (c : Dev nD) : W6 (F := Ideal) m ρ c (Proc.devRef .tc main_arg7) = W5 (F := Ideal) m ρ c (Proc.devRef .tc main_arg7) := by
  show StableHlo.after hostOps2 (W5 m ρ c) (Proc.devRef .tc main_arg7) = _
  host_keeps hostOps2
theorem step_arg7_5 (c : Dev nD) : W5 (F := Ideal) m ρ c (Proc.devRef .tc main_arg7) = W4 (F := Ideal) m ρ c (Proc.devRef .tc main_arg7) := W5_of_ne m ρ c main_arg7 (by decide)
theorem step_arg7_4 (c : Dev nD) : W4 (F := Ideal) m ρ c (Proc.devRef .tc main_arg7) = W3 (F := Ideal) m ρ c (Proc.devRef .tc main_arg7) := by
  show StableHlo.after hostOps1_1 (W3 m ρ c) (Proc.devRef .tc main_arg7) = _
  host_keeps hostOps1_1
theorem step_arg7_3 (c : Dev nD) : W3 (F := Ideal) m ρ c (Proc.devRef .tc main_arg7) = W2 (F := Ideal) m ρ c (Proc.devRef .tc main_arg7) := by
  show StableHlo.after hostOps1 (W2 m ρ c) (Proc.devRef .tc main_arg7) = _
  host_keeps hostOps1
theorem step_arg7_2 (c : Dev nD) : W2 (F := Ideal) m ρ c (Proc.devRef .tc main_arg7) = W1 (F := Ideal) m ρ c (Proc.devRef .tc main_arg7) := W2_of_ne m ρ c main_arg7 (by decide)
theorem step_arg7_1 (c : Dev nD) : W1 (F := Ideal) m ρ c (Proc.devRef .tc main_arg7) = W0 (F := Ideal) m ρ c (Proc.devRef .tc main_arg7) := by
  show StableHlo.after hostOps0 (W0 m ρ c) (Proc.devRef .tc main_arg7) = _
  host_keeps hostOps0
theorem step_arg8_8 (c : Dev nD) : W8 (F := Ideal) m ρ c (Proc.devRef .tc main_arg8) = W7 (F := Ideal) m ρ c (Proc.devRef .tc main_arg8) := W8_of_ne m ρ c main_arg8 (by decide)
theorem step_arg8_7 (c : Dev nD) : W7 (F := Ideal) m ρ c (Proc.devRef .tc main_arg8) = W6 (F := Ideal) m ρ c (Proc.devRef .tc main_arg8) := by
  show StableHlo.after hostOps2_1 (W6 m ρ c) (Proc.devRef .tc main_arg8) = _
  host_keeps hostOps2_1
theorem step_arg8_6 (c : Dev nD) : W6 (F := Ideal) m ρ c (Proc.devRef .tc main_arg8) = W5 (F := Ideal) m ρ c (Proc.devRef .tc main_arg8) := by
  show StableHlo.after hostOps2 (W5 m ρ c) (Proc.devRef .tc main_arg8) = _
  host_keeps hostOps2
theorem step_arg8_5 (c : Dev nD) : W5 (F := Ideal) m ρ c (Proc.devRef .tc main_arg8) = W4 (F := Ideal) m ρ c (Proc.devRef .tc main_arg8) := W5_of_ne m ρ c main_arg8 (by decide)
theorem step_arg8_4 (c : Dev nD) : W4 (F := Ideal) m ρ c (Proc.devRef .tc main_arg8) = W3 (F := Ideal) m ρ c (Proc.devRef .tc main_arg8) := by
  show StableHlo.after hostOps1_1 (W3 m ρ c) (Proc.devRef .tc main_arg8) = _
  host_keeps hostOps1_1
theorem step_arg8_3 (c : Dev nD) : W3 (F := Ideal) m ρ c (Proc.devRef .tc main_arg8) = W2 (F := Ideal) m ρ c (Proc.devRef .tc main_arg8) := by
  show StableHlo.after hostOps1 (W2 m ρ c) (Proc.devRef .tc main_arg8) = _
  host_keeps hostOps1
theorem step_arg8_2 (c : Dev nD) : W2 (F := Ideal) m ρ c (Proc.devRef .tc main_arg8) = W1 (F := Ideal) m ρ c (Proc.devRef .tc main_arg8) := W2_of_ne m ρ c main_arg8 (by decide)
theorem step_arg8_1 (c : Dev nD) : W1 (F := Ideal) m ρ c (Proc.devRef .tc main_arg8) = W0 (F := Ideal) m ρ c (Proc.devRef .tc main_arg8) := by
  show StableHlo.after hostOps0 (W0 m ρ c) (Proc.devRef .tc main_arg8) = _
  host_keeps hostOps0
theorem step_arg2_10 (c : Dev nD) : W10 (F := Ideal) m ρ c (Proc.devRef .tc main_arg2) = W9 (F := Ideal) m ρ c (Proc.devRef .tc main_arg2) := by
  show StableHlo.after hostOps3_1 (W9 m ρ c) (Proc.devRef .tc main_arg2) = _
  host_keeps hostOps3_1
theorem step_arg2_9 (c : Dev nD) : W9 (F := Ideal) m ρ c (Proc.devRef .tc main_arg2) = W8 (F := Ideal) m ρ c (Proc.devRef .tc main_arg2) := by
  show StableHlo.after hostOps3 (W8 m ρ c) (Proc.devRef .tc main_arg2) = _
  host_keeps hostOps3
theorem step_arg2_8 (c : Dev nD) : W8 (F := Ideal) m ρ c (Proc.devRef .tc main_arg2) = W7 (F := Ideal) m ρ c (Proc.devRef .tc main_arg2) := W8_of_ne m ρ c main_arg2 (by decide)
theorem step_arg2_7 (c : Dev nD) : W7 (F := Ideal) m ρ c (Proc.devRef .tc main_arg2) = W6 (F := Ideal) m ρ c (Proc.devRef .tc main_arg2) := by
  show StableHlo.after hostOps2_1 (W6 m ρ c) (Proc.devRef .tc main_arg2) = _
  host_keeps hostOps2_1
theorem step_arg2_6 (c : Dev nD) : W6 (F := Ideal) m ρ c (Proc.devRef .tc main_arg2) = W5 (F := Ideal) m ρ c (Proc.devRef .tc main_arg2) := by
  show StableHlo.after hostOps2 (W5 m ρ c) (Proc.devRef .tc main_arg2) = _
  host_keeps hostOps2
theorem step_arg2_5 (c : Dev nD) : W5 (F := Ideal) m ρ c (Proc.devRef .tc main_arg2) = W4 (F := Ideal) m ρ c (Proc.devRef .tc main_arg2) := W5_of_ne m ρ c main_arg2 (by decide)
theorem step_arg2_4 (c : Dev nD) : W4 (F := Ideal) m ρ c (Proc.devRef .tc main_arg2) = W3 (F := Ideal) m ρ c (Proc.devRef .tc main_arg2) := by
  show StableHlo.after hostOps1_1 (W3 m ρ c) (Proc.devRef .tc main_arg2) = _
  host_keeps hostOps1_1
theorem step_arg2_3 (c : Dev nD) : W3 (F := Ideal) m ρ c (Proc.devRef .tc main_arg2) = W2 (F := Ideal) m ρ c (Proc.devRef .tc main_arg2) := by
  show StableHlo.after hostOps1 (W2 m ρ c) (Proc.devRef .tc main_arg2) = _
  host_keeps hostOps1
theorem step_arg2_2 (c : Dev nD) : W2 (F := Ideal) m ρ c (Proc.devRef .tc main_arg2) = W1 (F := Ideal) m ρ c (Proc.devRef .tc main_arg2) := W2_of_ne m ρ c main_arg2 (by decide)
theorem step_arg2_1 (c : Dev nD) : W1 (F := Ideal) m ρ c (Proc.devRef .tc main_arg2) = W0 (F := Ideal) m ρ c (Proc.devRef .tc main_arg2) := by
  show StableHlo.after hostOps0 (W0 m ρ c) (Proc.devRef .tc main_arg2) = _
  host_keeps hostOps0
theorem step_arg10_10 (c : Dev nD) : W10 (F := Ideal) m ρ c (Proc.devRef .tc main_arg10) = W9 (F := Ideal) m ρ c (Proc.devRef .tc main_arg10) := by
  show StableHlo.after hostOps3_1 (W9 m ρ c) (Proc.devRef .tc main_arg10) = _
  host_keeps hostOps3_1
theorem step_arg10_9 (c : Dev nD) : W9 (F := Ideal) m ρ c (Proc.devRef .tc main_arg10) = W8 (F := Ideal) m ρ c (Proc.devRef .tc main_arg10) := by
  show StableHlo.after hostOps3 (W8 m ρ c) (Proc.devRef .tc main_arg10) = _
  host_keeps hostOps3
theorem step_arg10_8 (c : Dev nD) : W8 (F := Ideal) m ρ c (Proc.devRef .tc main_arg10) = W7 (F := Ideal) m ρ c (Proc.devRef .tc main_arg10) := W8_of_ne m ρ c main_arg10 (by decide)
theorem step_arg10_7 (c : Dev nD) : W7 (F := Ideal) m ρ c (Proc.devRef .tc main_arg10) = W6 (F := Ideal) m ρ c (Proc.devRef .tc main_arg10) := by
  show StableHlo.after hostOps2_1 (W6 m ρ c) (Proc.devRef .tc main_arg10) = _
  host_keeps hostOps2_1
theorem step_arg10_6 (c : Dev nD) : W6 (F := Ideal) m ρ c (Proc.devRef .tc main_arg10) = W5 (F := Ideal) m ρ c (Proc.devRef .tc main_arg10) := by
  show StableHlo.after hostOps2 (W5 m ρ c) (Proc.devRef .tc main_arg10) = _
  host_keeps hostOps2
theorem step_arg10_5 (c : Dev nD) : W5 (F := Ideal) m ρ c (Proc.devRef .tc main_arg10) = W4 (F := Ideal) m ρ c (Proc.devRef .tc main_arg10) := W5_of_ne m ρ c main_arg10 (by decide)
theorem step_arg10_4 (c : Dev nD) : W4 (F := Ideal) m ρ c (Proc.devRef .tc main_arg10) = W3 (F := Ideal) m ρ c (Proc.devRef .tc main_arg10) := by
  show StableHlo.after hostOps1_1 (W3 m ρ c) (Proc.devRef .tc main_arg10) = _
  host_keeps hostOps1_1
theorem step_arg10_3 (c : Dev nD) : W3 (F := Ideal) m ρ c (Proc.devRef .tc main_arg10) = W2 (F := Ideal) m ρ c (Proc.devRef .tc main_arg10) := by
  show StableHlo.after hostOps1 (W2 m ρ c) (Proc.devRef .tc main_arg10) = _
  host_keeps hostOps1
theorem step_arg10_2 (c : Dev nD) : W2 (F := Ideal) m ρ c (Proc.devRef .tc main_arg10) = W1 (F := Ideal) m ρ c (Proc.devRef .tc main_arg10) := W2_of_ne m ρ c main_arg10 (by decide)
theorem step_arg10_1 (c : Dev nD) : W1 (F := Ideal) m ρ c (Proc.devRef .tc main_arg10) = W0 (F := Ideal) m ρ c (Proc.devRef .tc main_arg10) := by
  show StableHlo.after hostOps0 (W0 m ρ c) (Proc.devRef .tc main_arg10) = _
  host_keeps hostOps0
theorem step_arg9_11 (c : Dev nD) : W11 (F := Ideal) m ρ c (Proc.devRef .tc main_arg9) = W10 (F := Ideal) m ρ c (Proc.devRef .tc main_arg9) := by
  show StableHlo.after hostOps3_2 (W10 m ρ c) (Proc.devRef .tc main_arg9) = _
  host_keeps hostOps3_2
theorem step_arg9_10 (c : Dev nD) : W10 (F := Ideal) m ρ c (Proc.devRef .tc main_arg9) = W9 (F := Ideal) m ρ c (Proc.devRef .tc main_arg9) := by
  show StableHlo.after hostOps3_1 (W9 m ρ c) (Proc.devRef .tc main_arg9) = _
  host_keeps hostOps3_1
theorem step_arg9_9 (c : Dev nD) : W9 (F := Ideal) m ρ c (Proc.devRef .tc main_arg9) = W8 (F := Ideal) m ρ c (Proc.devRef .tc main_arg9) := by
  show StableHlo.after hostOps3 (W8 m ρ c) (Proc.devRef .tc main_arg9) = _
  host_keeps hostOps3
theorem step_arg9_8 (c : Dev nD) : W8 (F := Ideal) m ρ c (Proc.devRef .tc main_arg9) = W7 (F := Ideal) m ρ c (Proc.devRef .tc main_arg9) := W8_of_ne m ρ c main_arg9 (by decide)
theorem step_arg9_7 (c : Dev nD) : W7 (F := Ideal) m ρ c (Proc.devRef .tc main_arg9) = W6 (F := Ideal) m ρ c (Proc.devRef .tc main_arg9) := by
  show StableHlo.after hostOps2_1 (W6 m ρ c) (Proc.devRef .tc main_arg9) = _
  host_keeps hostOps2_1
theorem step_arg9_6 (c : Dev nD) : W6 (F := Ideal) m ρ c (Proc.devRef .tc main_arg9) = W5 (F := Ideal) m ρ c (Proc.devRef .tc main_arg9) := by
  show StableHlo.after hostOps2 (W5 m ρ c) (Proc.devRef .tc main_arg9) = _
  host_keeps hostOps2
theorem step_arg9_5 (c : Dev nD) : W5 (F := Ideal) m ρ c (Proc.devRef .tc main_arg9) = W4 (F := Ideal) m ρ c (Proc.devRef .tc main_arg9) := W5_of_ne m ρ c main_arg9 (by decide)
theorem step_arg9_4 (c : Dev nD) : W4 (F := Ideal) m ρ c (Proc.devRef .tc main_arg9) = W3 (F := Ideal) m ρ c (Proc.devRef .tc main_arg9) := by
  show StableHlo.after hostOps1_1 (W3 m ρ c) (Proc.devRef .tc main_arg9) = _
  host_keeps hostOps1_1
theorem step_arg9_3 (c : Dev nD) : W3 (F := Ideal) m ρ c (Proc.devRef .tc main_arg9) = W2 (F := Ideal) m ρ c (Proc.devRef .tc main_arg9) := by
  show StableHlo.after hostOps1 (W2 m ρ c) (Proc.devRef .tc main_arg9) = _
  host_keeps hostOps1
theorem step_arg9_2 (c : Dev nD) : W2 (F := Ideal) m ρ c (Proc.devRef .tc main_arg9) = W1 (F := Ideal) m ρ c (Proc.devRef .tc main_arg9) := W2_of_ne m ρ c main_arg9 (by decide)
theorem step_arg9_1 (c : Dev nD) : W1 (F := Ideal) m ρ c (Proc.devRef .tc main_arg9) = W0 (F := Ideal) m ρ c (Proc.devRef .tc main_arg9) := by
  show StableHlo.after hostOps0 (W0 m ρ c) (Proc.devRef .tc main_arg9) = _
  host_keeps hostOps0
theorem step_arg12_12 (c : Dev nD) : W12 (F := Ideal) m ρ c (Proc.devRef .tc main_arg12) = W11 (F := Ideal) m ρ c (Proc.devRef .tc main_arg12) := W12_of_ne m ρ c main_arg12 (by decide)
theorem step_arg12_11 (c : Dev nD) : W11 (F := Ideal) m ρ c (Proc.devRef .tc main_arg12) = W10 (F := Ideal) m ρ c (Proc.devRef .tc main_arg12) := by
  show StableHlo.after hostOps3_2 (W10 m ρ c) (Proc.devRef .tc main_arg12) = _
  host_keeps hostOps3_2
theorem step_arg12_10 (c : Dev nD) : W10 (F := Ideal) m ρ c (Proc.devRef .tc main_arg12) = W9 (F := Ideal) m ρ c (Proc.devRef .tc main_arg12) := by
  show StableHlo.after hostOps3_1 (W9 m ρ c) (Proc.devRef .tc main_arg12) = _
  host_keeps hostOps3_1
theorem step_arg12_9 (c : Dev nD) : W9 (F := Ideal) m ρ c (Proc.devRef .tc main_arg12) = W8 (F := Ideal) m ρ c (Proc.devRef .tc main_arg12) := by
  show StableHlo.after hostOps3 (W8 m ρ c) (Proc.devRef .tc main_arg12) = _
  host_keeps hostOps3
theorem step_arg12_8 (c : Dev nD) : W8 (F := Ideal) m ρ c (Proc.devRef .tc main_arg12) = W7 (F := Ideal) m ρ c (Proc.devRef .tc main_arg12) := W8_of_ne m ρ c main_arg12 (by decide)
theorem step_arg12_7 (c : Dev nD) : W7 (F := Ideal) m ρ c (Proc.devRef .tc main_arg12) = W6 (F := Ideal) m ρ c (Proc.devRef .tc main_arg12) := by
  show StableHlo.after hostOps2_1 (W6 m ρ c) (Proc.devRef .tc main_arg12) = _
  host_keeps hostOps2_1
theorem step_arg12_6 (c : Dev nD) : W6 (F := Ideal) m ρ c (Proc.devRef .tc main_arg12) = W5 (F := Ideal) m ρ c (Proc.devRef .tc main_arg12) := by
  show StableHlo.after hostOps2 (W5 m ρ c) (Proc.devRef .tc main_arg12) = _
  host_keeps hostOps2
theorem step_arg12_5 (c : Dev nD) : W5 (F := Ideal) m ρ c (Proc.devRef .tc main_arg12) = W4 (F := Ideal) m ρ c (Proc.devRef .tc main_arg12) := W5_of_ne m ρ c main_arg12 (by decide)
theorem step_arg12_4 (c : Dev nD) : W4 (F := Ideal) m ρ c (Proc.devRef .tc main_arg12) = W3 (F := Ideal) m ρ c (Proc.devRef .tc main_arg12) := by
  show StableHlo.after hostOps1_1 (W3 m ρ c) (Proc.devRef .tc main_arg12) = _
  host_keeps hostOps1_1
theorem step_arg12_3 (c : Dev nD) : W3 (F := Ideal) m ρ c (Proc.devRef .tc main_arg12) = W2 (F := Ideal) m ρ c (Proc.devRef .tc main_arg12) := by
  show StableHlo.after hostOps1 (W2 m ρ c) (Proc.devRef .tc main_arg12) = _
  host_keeps hostOps1
theorem step_arg12_2 (c : Dev nD) : W2 (F := Ideal) m ρ c (Proc.devRef .tc main_arg12) = W1 (F := Ideal) m ρ c (Proc.devRef .tc main_arg12) := W2_of_ne m ρ c main_arg12 (by decide)
theorem step_arg12_1 (c : Dev nD) : W1 (F := Ideal) m ρ c (Proc.devRef .tc main_arg12) = W0 (F := Ideal) m ρ c (Proc.devRef .tc main_arg12) := by
  show StableHlo.after hostOps0 (W0 m ρ c) (Proc.devRef .tc main_arg12) = _
  host_keeps hostOps0
theorem step_arg11_13 (c : Dev nD) : W13 (F := Ideal) m ρ c (Proc.devRef .tc main_arg11) = W12 (F := Ideal) m ρ c (Proc.devRef .tc main_arg11) := by
  show StableHlo.after hostOps4 (W12 m ρ c) (Proc.devRef .tc main_arg11) = _
  host_keeps hostOps4
theorem step_arg11_12 (c : Dev nD) : W12 (F := Ideal) m ρ c (Proc.devRef .tc main_arg11) = W11 (F := Ideal) m ρ c (Proc.devRef .tc main_arg11) := W12_of_ne m ρ c main_arg11 (by decide)
theorem step_arg11_11 (c : Dev nD) : W11 (F := Ideal) m ρ c (Proc.devRef .tc main_arg11) = W10 (F := Ideal) m ρ c (Proc.devRef .tc main_arg11) := by
  show StableHlo.after hostOps3_2 (W10 m ρ c) (Proc.devRef .tc main_arg11) = _
  host_keeps hostOps3_2
theorem step_arg11_10 (c : Dev nD) : W10 (F := Ideal) m ρ c (Proc.devRef .tc main_arg11) = W9 (F := Ideal) m ρ c (Proc.devRef .tc main_arg11) := by
  show StableHlo.after hostOps3_1 (W9 m ρ c) (Proc.devRef .tc main_arg11) = _
  host_keeps hostOps3_1
theorem step_arg11_9 (c : Dev nD) : W9 (F := Ideal) m ρ c (Proc.devRef .tc main_arg11) = W8 (F := Ideal) m ρ c (Proc.devRef .tc main_arg11) := by
  show StableHlo.after hostOps3 (W8 m ρ c) (Proc.devRef .tc main_arg11) = _
  host_keeps hostOps3
theorem step_arg11_8 (c : Dev nD) : W8 (F := Ideal) m ρ c (Proc.devRef .tc main_arg11) = W7 (F := Ideal) m ρ c (Proc.devRef .tc main_arg11) := W8_of_ne m ρ c main_arg11 (by decide)
theorem step_arg11_7 (c : Dev nD) : W7 (F := Ideal) m ρ c (Proc.devRef .tc main_arg11) = W6 (F := Ideal) m ρ c (Proc.devRef .tc main_arg11) := by
  show StableHlo.after hostOps2_1 (W6 m ρ c) (Proc.devRef .tc main_arg11) = _
  host_keeps hostOps2_1
theorem step_arg11_6 (c : Dev nD) : W6 (F := Ideal) m ρ c (Proc.devRef .tc main_arg11) = W5 (F := Ideal) m ρ c (Proc.devRef .tc main_arg11) := by
  show StableHlo.after hostOps2 (W5 m ρ c) (Proc.devRef .tc main_arg11) = _
  host_keeps hostOps2
theorem step_arg11_5 (c : Dev nD) : W5 (F := Ideal) m ρ c (Proc.devRef .tc main_arg11) = W4 (F := Ideal) m ρ c (Proc.devRef .tc main_arg11) := W5_of_ne m ρ c main_arg11 (by decide)
theorem step_arg11_4 (c : Dev nD) : W4 (F := Ideal) m ρ c (Proc.devRef .tc main_arg11) = W3 (F := Ideal) m ρ c (Proc.devRef .tc main_arg11) := by
  show StableHlo.after hostOps1_1 (W3 m ρ c) (Proc.devRef .tc main_arg11) = _
  host_keeps hostOps1_1
theorem step_arg11_3 (c : Dev nD) : W3 (F := Ideal) m ρ c (Proc.devRef .tc main_arg11) = W2 (F := Ideal) m ρ c (Proc.devRef .tc main_arg11) := by
  show StableHlo.after hostOps1 (W2 m ρ c) (Proc.devRef .tc main_arg11) = _
  host_keeps hostOps1
theorem step_arg11_2 (c : Dev nD) : W2 (F := Ideal) m ρ c (Proc.devRef .tc main_arg11) = W1 (F := Ideal) m ρ c (Proc.devRef .tc main_arg11) := W2_of_ne m ρ c main_arg11 (by decide)
theorem step_arg11_1 (c : Dev nD) : W1 (F := Ideal) m ρ c (Proc.devRef .tc main_arg11) = W0 (F := Ideal) m ρ c (Proc.devRef .tc main_arg11) := by
  show StableHlo.after hostOps0 (W0 m ρ c) (Proc.devRef .tc main_arg11) = _
  host_keeps hostOps0
theorem step_v1_2 (c : Dev nD) : W2 (F := Ideal) m ρ c (Proc.devRef .tc main_v1) = W1 (F := Ideal) m ρ c (Proc.devRef .tc main_v1) := W2_of_ne m ρ c main_v1 (by decide)
theorem step_v3_2 (c : Dev nD) : W2 (F := Ideal) m ρ c (Proc.devRef .tc main_v3) = W1 (F := Ideal) m ρ c (Proc.devRef .tc main_v3) := W2_of_ne m ρ c main_v3 (by decide)
theorem step_v10_2 (c : Dev nD) : W2 (F := Ideal) m ρ c (Proc.devRef .tc main_v10) = W1 (F := Ideal) m ρ c (Proc.devRef .tc main_v10) := W2_of_ne m ρ c main_v10 (by decide)
theorem step_v1_5 (c : Dev nD) : W5 (F := Ideal) m ρ c (Proc.devRef .tc main_v1) = W4 (F := Ideal) m ρ c (Proc.devRef .tc main_v1) := W5_of_ne m ρ c main_v1 (by decide)
theorem step_v1_4 (c : Dev nD) : W4 (F := Ideal) m ρ c (Proc.devRef .tc main_v1) = W3 (F := Ideal) m ρ c (Proc.devRef .tc main_v1) := by
  show StableHlo.after hostOps1_1 (W3 m ρ c) (Proc.devRef .tc main_v1) = _
  host_keeps hostOps1_1
theorem step_v1_3 (c : Dev nD) : W3 (F := Ideal) m ρ c (Proc.devRef .tc main_v1) = W2 (F := Ideal) m ρ c (Proc.devRef .tc main_v1) := by
  show StableHlo.after hostOps1 (W2 m ρ c) (Proc.devRef .tc main_v1) = _
  host_keeps hostOps1
theorem step_v3_5 (c : Dev nD) : W5 (F := Ideal) m ρ c (Proc.devRef .tc main_v3) = W4 (F := Ideal) m ρ c (Proc.devRef .tc main_v3) := W5_of_ne m ρ c main_v3 (by decide)
theorem step_v3_4 (c : Dev nD) : W4 (F := Ideal) m ρ c (Proc.devRef .tc main_v3) = W3 (F := Ideal) m ρ c (Proc.devRef .tc main_v3) := by
  show StableHlo.after hostOps1_1 (W3 m ρ c) (Proc.devRef .tc main_v3) = _
  host_keeps hostOps1_1
theorem step_v3_3 (c : Dev nD) : W3 (F := Ideal) m ρ c (Proc.devRef .tc main_v3) = W2 (F := Ideal) m ρ c (Proc.devRef .tc main_v3) := by
  show StableHlo.after hostOps1 (W2 m ρ c) (Proc.devRef .tc main_v3) = _
  host_keeps hostOps1
theorem step_v10_5 (c : Dev nD) : W5 (F := Ideal) m ρ c (Proc.devRef .tc main_v10) = W4 (F := Ideal) m ρ c (Proc.devRef .tc main_v10) := W5_of_ne m ρ c main_v10 (by decide)
theorem step_v10_4 (c : Dev nD) : W4 (F := Ideal) m ρ c (Proc.devRef .tc main_v10) = W3 (F := Ideal) m ρ c (Proc.devRef .tc main_v10) := by
  show StableHlo.after hostOps1_1 (W3 m ρ c) (Proc.devRef .tc main_v10) = _
  host_keeps hostOps1_1
theorem step_v10_3 (c : Dev nD) : W3 (F := Ideal) m ρ c (Proc.devRef .tc main_v10) = W2 (F := Ideal) m ρ c (Proc.devRef .tc main_v10) := by
  show StableHlo.after hostOps1 (W2 m ρ c) (Proc.devRef .tc main_v10) = _
  host_keeps hostOps1
theorem step_v1_8 (c : Dev nD) : W8 (F := Ideal) m ρ c (Proc.devRef .tc main_v1) = W7 (F := Ideal) m ρ c (Proc.devRef .tc main_v1) := W8_of_ne m ρ c main_v1 (by decide)
theorem step_v1_7 (c : Dev nD) : W7 (F := Ideal) m ρ c (Proc.devRef .tc main_v1) = W6 (F := Ideal) m ρ c (Proc.devRef .tc main_v1) := by
  show StableHlo.after hostOps2_1 (W6 m ρ c) (Proc.devRef .tc main_v1) = _
  host_keeps hostOps2_1
theorem step_v1_6 (c : Dev nD) : W6 (F := Ideal) m ρ c (Proc.devRef .tc main_v1) = W5 (F := Ideal) m ρ c (Proc.devRef .tc main_v1) := by
  show StableHlo.after hostOps2 (W5 m ρ c) (Proc.devRef .tc main_v1) = _
  host_keeps hostOps2
theorem step_v3_8 (c : Dev nD) : W8 (F := Ideal) m ρ c (Proc.devRef .tc main_v3) = W7 (F := Ideal) m ρ c (Proc.devRef .tc main_v3) := W8_of_ne m ρ c main_v3 (by decide)
theorem step_v3_7 (c : Dev nD) : W7 (F := Ideal) m ρ c (Proc.devRef .tc main_v3) = W6 (F := Ideal) m ρ c (Proc.devRef .tc main_v3) := by
  show StableHlo.after hostOps2_1 (W6 m ρ c) (Proc.devRef .tc main_v3) = _
  host_keeps hostOps2_1
theorem step_v3_6 (c : Dev nD) : W6 (F := Ideal) m ρ c (Proc.devRef .tc main_v3) = W5 (F := Ideal) m ρ c (Proc.devRef .tc main_v3) := by
  show StableHlo.after hostOps2 (W5 m ρ c) (Proc.devRef .tc main_v3) = _
  host_keeps hostOps2
theorem step_v10_8 (c : Dev nD) : W8 (F := Ideal) m ρ c (Proc.devRef .tc main_v10) = W7 (F := Ideal) m ρ c (Proc.devRef .tc main_v10) := W8_of_ne m ρ c main_v10 (by decide)
theorem step_v10_7 (c : Dev nD) : W7 (F := Ideal) m ρ c (Proc.devRef .tc main_v10) = W6 (F := Ideal) m ρ c (Proc.devRef .tc main_v10) := by
  show StableHlo.after hostOps2_1 (W6 m ρ c) (Proc.devRef .tc main_v10) = _
  host_keeps hostOps2_1
theorem step_v10_6 (c : Dev nD) : W6 (F := Ideal) m ρ c (Proc.devRef .tc main_v10) = W5 (F := Ideal) m ρ c (Proc.devRef .tc main_v10) := by
  show StableHlo.after hostOps2 (W5 m ρ c) (Proc.devRef .tc main_v10) = _
  host_keeps hostOps2
theorem step_v138_13 (c : Dev nD) : W13 (F := Ideal) m ρ c (Proc.devRef .tc main_v138) = W12 (F := Ideal) m ρ c (Proc.devRef .tc main_v138) := by
  show StableHlo.after hostOps4 (W12 m ρ c) (Proc.devRef .tc main_v138) = _
  host_keeps hostOps4

/-- The node features, as the first region finds them. -/
theorem arg0_at_1 (c : Dev nD) :
    W1 (F := Ideal) m ρ c (Proc.devRef .tc main_arg0) = m ((c : Thread nD τ).loc main_arg0) :=
  (step_arg0_1 m ρ c).trans rfl

/-- The first layer's weights, as the first region finds them. -/
theorem arg3_at_1 (c : Dev nD) :
    W1 (F := Ideal) m ρ c (Proc.devRef .tc main_arg3) = m ((c : Thread nD τ).loc main_arg3) :=
  (step_arg3_1 m ρ c).trans rfl

/-- The first layer's bias after the first region. -/
theorem arg4_at_2 (c : Dev nD) :
    W2 (F := Ideal) m ρ c (Proc.devRef .tc main_arg4) = m ((c : Thread nD τ).loc main_arg4) :=
  ((step_arg4_2 m ρ c).trans (step_arg4_1 m ρ c)).trans rfl

/-- The second layer's weights, as the second region finds them. -/
theorem arg5_at_4 (c : Dev nD) :
    W4 (F := Ideal) m ρ c (Proc.devRef .tc main_arg5) = m ((c : Thread nD τ).loc main_arg5) :=
  ((((step_arg5_4 m ρ c).trans (step_arg5_3 m ρ c)).trans (step_arg5_2 m ρ c)).trans (step_arg5_1 m ρ c)).trans rfl

/-- The second layer's bias after the second region. -/
theorem arg6_at_5 (c : Dev nD) :
    W5 (F := Ideal) m ρ c (Proc.devRef .tc main_arg6) = m ((c : Thread nD τ).loc main_arg6) :=
  (((((step_arg6_5 m ρ c).trans (step_arg6_4 m ρ c)).trans (step_arg6_3 m ρ c)).trans (step_arg6_2 m ρ c)).trans (step_arg6_1 m ρ c)).trans rfl

/-- The third layer's weights, as the third region finds them. -/
theorem arg7_at_7 (c : Dev nD) :
    W7 (F := Ideal) m ρ c (Proc.devRef .tc main_arg7) = m ((c : Thread nD τ).loc main_arg7) :=
  (((((((step_arg7_7 m ρ c).trans (step_arg7_6 m ρ c)).trans (step_arg7_5 m ρ c)).trans (step_arg7_4 m ρ c)).trans (step_arg7_3 m ρ c)).trans (step_arg7_2 m ρ c)).trans (step_arg7_1 m ρ c)).trans rfl

/-- The third layer's bias after the third region. -/
theorem arg8_at_8 (c : Dev nD) :
    W8 (F := Ideal) m ρ c (Proc.devRef .tc main_arg8) = m ((c : Thread nD τ).loc main_arg8) :=
  ((((((((step_arg8_8 m ρ c).trans (step_arg8_7 m ρ c)).trans (step_arg8_6 m ρ c)).trans (step_arg8_5 m ρ c)).trans (step_arg8_4 m ρ c)).trans (step_arg8_3 m ρ c)).trans (step_arg8_2 m ρ c)).trans (step_arg8_1 m ρ c)).trans rfl

/-- The graph assignment of the nodes, as the pooling operations find it. -/
theorem arg2_at_10 (c : Dev nD) :
    W10 (F := Ideal) m ρ c (Proc.devRef .tc main_arg2) = m ((c : Thread nD τ).loc main_arg2) :=
  ((((((((((step_arg2_10 m ρ c).trans (step_arg2_9 m ρ c)).trans (step_arg2_8 m ρ c)).trans (step_arg2_7 m ρ c)).trans (step_arg2_6 m ρ c)).trans (step_arg2_5 m ρ c)).trans (step_arg2_4 m ρ c)).trans (step_arg2_3 m ρ c)).trans (step_arg2_2 m ρ c)).trans (step_arg2_1 m ρ c)).trans rfl

/-- The head's first bias, as the pooling stretch finds it. -/
theorem arg10_at_10 (c : Dev nD) :
    W10 (F := Ideal) m ρ c (Proc.devRef .tc main_arg10) = m ((c : Thread nD τ).loc main_arg10) :=
  ((((((((((step_arg10_10 m ρ c).trans (step_arg10_9 m ρ c)).trans (step_arg10_8 m ρ c)).trans (step_arg10_7 m ρ c)).trans (step_arg10_6 m ρ c)).trans (step_arg10_5 m ρ c)).trans (step_arg10_4 m ρ c)).trans (step_arg10_3 m ρ c)).trans (step_arg10_2 m ρ c)).trans (step_arg10_1 m ρ c)).trans rfl

/-- The head's first weights, as the fourth region finds them. -/
theorem arg9_at_11 (c : Dev nD) :
    W11 (F := Ideal) m ρ c (Proc.devRef .tc main_arg9) = m ((c : Thread nD τ).loc main_arg9) :=
  (((((((((((step_arg9_11 m ρ c).trans (step_arg9_10 m ρ c)).trans (step_arg9_9 m ρ c)).trans (step_arg9_8 m ρ c)).trans (step_arg9_7 m ρ c)).trans (step_arg9_6 m ρ c)).trans (step_arg9_5 m ρ c)).trans (step_arg9_4 m ρ c)).trans (step_arg9_3 m ρ c)).trans (step_arg9_2 m ρ c)).trans (step_arg9_1 m ρ c)).trans rfl

/-- The head's last bias after the fourth region. -/
theorem arg12_at_12 (c : Dev nD) :
    W12 (F := Ideal) m ρ c (Proc.devRef .tc main_arg12) = m ((c : Thread nD τ).loc main_arg12) :=
  ((((((((((((step_arg12_12 m ρ c).trans (step_arg12_11 m ρ c)).trans (step_arg12_10 m ρ c)).trans (step_arg12_9 m ρ c)).trans (step_arg12_8 m ρ c)).trans (step_arg12_7 m ρ c)).trans (step_arg12_6 m ρ c)).trans (step_arg12_5 m ρ c)).trans (step_arg12_4 m ρ c)).trans (step_arg12_3 m ρ c)).trans (step_arg12_2 m ρ c)).trans (step_arg12_1 m ρ c)).trans rfl

/-- The head's last weights, as the last region finds them. -/
theorem arg11_at_13 (c : Dev nD) :
    W13 (F := Ideal) m ρ c (Proc.devRef .tc main_arg11) = m ((c : Thread nD τ).loc main_arg11) :=
  (((((((((((((step_arg11_13 m ρ c).trans (step_arg11_12 m ρ c)).trans (step_arg11_11 m ρ c)).trans (step_arg11_10 m ρ c)).trans (step_arg11_9 m ρ c)).trans (step_arg11_8 m ρ c)).trans (step_arg11_7 m ρ c)).trans (step_arg11_6 m ρ c)).trans (step_arg11_5 m ρ c)).trans (step_arg11_4 m ρ c)).trans (step_arg11_3 m ρ c)).trans (step_arg11_2 m ρ c)).trans (step_arg11_1 m ρ c)).trans rfl

/-- The edge sources are still the reference's stage at boundary 2. -/
theorem sources_at_2 (c : Dev nD) :
    W2 (F := Ideal) m ρ c (Proc.devRef .tc main_v1) = Cert.ReferenceIdeal.Read.val_main_v1 (F := Ideal) (m ((c : Thread nD τ).loc main_arg1)) :=
  (step_v1_2 m ρ c).trans (Cert.KernelIdeal.Normalisation.sources m ρ c)

/-- The edge destinations likewise. -/
theorem destinations_at_2 (c : Dev nD) :
    W2 (F := Ideal) m ρ c (Proc.devRef .tc main_v3) = Cert.ReferenceIdeal.Read.val_main_v3 (F := Ideal) (m ((c : Thread nD τ).loc main_arg1)) :=
  (step_v3_2 m ρ c).trans (Cert.KernelIdeal.Normalisation.destinations m ρ c)

/-- The normalisation likewise. -/
theorem normalisation_at_2 (c : Dev nD) :
    W2 (F := Ideal) m ρ c (Proc.devRef .tc main_v10) = Cert.ReferenceIdeal.Read.val_main_v10 (F := Ideal) (m ((c : Thread nD τ).loc main_arg1)) :=
  (step_v10_2 m ρ c).trans (Cert.KernelIdeal.Normalisation.normalisation m ρ c)

/-- The edge sources are still the reference's stage at boundary 5. -/
theorem sources_at_5 (c : Dev nD) :
    W5 (F := Ideal) m ρ c (Proc.devRef .tc main_v1) = Cert.ReferenceIdeal.Read.val_main_v1 (F := Ideal) (m ((c : Thread nD τ).loc main_arg1)) :=
  ((((step_v1_5 m ρ c).trans (step_v1_4 m ρ c)).trans (step_v1_3 m ρ c)).trans (step_v1_2 m ρ c)).trans (Cert.KernelIdeal.Normalisation.sources m ρ c)

/-- The edge destinations likewise. -/
theorem destinations_at_5 (c : Dev nD) :
    W5 (F := Ideal) m ρ c (Proc.devRef .tc main_v3) = Cert.ReferenceIdeal.Read.val_main_v3 (F := Ideal) (m ((c : Thread nD τ).loc main_arg1)) :=
  ((((step_v3_5 m ρ c).trans (step_v3_4 m ρ c)).trans (step_v3_3 m ρ c)).trans (step_v3_2 m ρ c)).trans (Cert.KernelIdeal.Normalisation.destinations m ρ c)

/-- The normalisation likewise. -/
theorem normalisation_at_5 (c : Dev nD) :
    W5 (F := Ideal) m ρ c (Proc.devRef .tc main_v10) = Cert.ReferenceIdeal.Read.val_main_v10 (F := Ideal) (m ((c : Thread nD τ).loc main_arg1)) :=
  ((((step_v10_5 m ρ c).trans (step_v10_4 m ρ c)).trans (step_v10_3 m ρ c)).trans (step_v10_2 m ρ c)).trans (Cert.KernelIdeal.Normalisation.normalisation m ρ c)

/-- The edge sources are still the reference's stage at boundary 8. -/
theorem sources_at_8 (c : Dev nD) :
    W8 (F := Ideal) m ρ c (Proc.devRef .tc main_v1) = Cert.ReferenceIdeal.Read.val_main_v1 (F := Ideal) (m ((c : Thread nD τ).loc main_arg1)) :=
  (((((((step_v1_8 m ρ c).trans (step_v1_7 m ρ c)).trans (step_v1_6 m ρ c)).trans (step_v1_5 m ρ c)).trans (step_v1_4 m ρ c)).trans (step_v1_3 m ρ c)).trans (step_v1_2 m ρ c)).trans (Cert.KernelIdeal.Normalisation.sources m ρ c)

/-- The edge destinations likewise. -/
theorem destinations_at_8 (c : Dev nD) :
    W8 (F := Ideal) m ρ c (Proc.devRef .tc main_v3) = Cert.ReferenceIdeal.Read.val_main_v3 (F := Ideal) (m ((c : Thread nD τ).loc main_arg1)) :=
  (((((((step_v3_8 m ρ c).trans (step_v3_7 m ρ c)).trans (step_v3_6 m ρ c)).trans (step_v3_5 m ρ c)).trans (step_v3_4 m ρ c)).trans (step_v3_3 m ρ c)).trans (step_v3_2 m ρ c)).trans (Cert.KernelIdeal.Normalisation.destinations m ρ c)

/-- The normalisation likewise. -/
theorem normalisation_at_8 (c : Dev nD) :
    W8 (F := Ideal) m ρ c (Proc.devRef .tc main_v10) = Cert.ReferenceIdeal.Read.val_main_v10 (F := Ideal) (m ((c : Thread nD τ).loc main_arg1)) :=
  (((((((step_v10_8 m ρ c).trans (step_v10_7 m ρ c)).trans (step_v10_6 m ρ c)).trans (step_v10_5 m ρ c)).trans (step_v10_4 m ρ c)).trans (step_v10_3 m ρ c)).trans (step_v10_2 m ρ c)).trans (Cert.KernelIdeal.Normalisation.normalisation m ρ c)

/-- The hidden features the fourth region wrote are untouched by the one reshape before the last region. -/
theorem hidden_at_13 (c : Dev nD) :
    W13 (F := Ideal) m ρ c (Proc.devRef .tc main_v138) = W12 (F := Ideal) m ρ c (Proc.devRef .tc main_v138) :=
  step_v138_13 m ρ c

end Cert.KernelIdeal.Carried

end
-- ==== Proof.LibTypedRef.lean ====
/-
  Typed references: the two transports between a value's type and its buffer's type are mutually inverse.

  A typed reference pairs a buffer with a proof that the buffer's type is the value's type; contents move between the
  two types by transport along that proof. Whatever the reference and the type, transporting there and back is the
  identity: once the type equation is substituted both transports are the identity function.
-/
import Idealize.ShloMosaic.Lib.StableHlo

namespace Idealize.ShloMosaic.StableHlo.TRef

variable {sig : RefSig} {Val : EltTy → Type} {T : BufTy}

/-- Contents transported to the buffer's type and back are the contents. -/
theorem ofBuf_toBuf (x : TRef sig T) (v : T.Contents Val) : x.ofBuf (x.toBuf v) = v := by
  obtain ⟨r, h, _, _⟩ := x
  subst h
  rfl

/-- Contents transported to the value's type and back are the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.ThirdProduct.lean ====
/-
  The third matmul region, read as one whole-array function.

  As in the first layer, the grid has ten points and point `t` takes rows `5000·t … 5000·t + 4999` of the previous
  layer's activations (all 128 columns) together with the whole 128 × 128 weight matrix, and writes their product back
  into the same rows of the output. The body first re-casts the activations block to its own shape (the identity) and
  narrows both operands to bf16 (the identity at the ideal instance); the accumulator starts at zero. So entry
  `(r, n)` of the output array ends as `∑ k, h (r, k) · w (k, n)` over the extended reals, the ten row blocks tiling
  the 50000 rows.
-/
import proofs.«134181_j83004537962759_1_alg».proof.Proof.Gen.KernelIdeal.Frame
import proofs.«134181_j83004537962759_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.ThirdProduct

open Idealize.ShloMosaic Idealize.ShloMosaic.TcCoe Idealize.SL.Sem
open Cert.KernelIdeal Cert.KernelIdeal.Gen
open Idealize.ShloMosaic.Pipeline (Dat Cfg Window)

theorem zero_offsets : (![0, 0] : Fin 2 → Nat) = fun _ => 0 := funext fun a => by fin_cases a <;> rfl

/-- Entry `(r, k)` of a 5000 × 128 activations block. -/
abbrev rowOf (j : S5000x128.Idx) (k : Fin 128) : S5000x128.Idx := fun a => match a with
  | ⟨0, _⟩ => ⟨(j 0).val, (j 0).isLt⟩
  | ⟨1, _⟩ => ⟨k.val, k.isLt⟩
/-- Entry `(k, n)` of the weight matrix. -/
abbrev colOf (j : S5000x128.Idx) (k : Fin 128) : S128x128.Idx := fun a => match a with
  | ⟨0, _⟩ => ⟨k.val, k.isLt⟩
  | ⟨1, _⟩ => ⟨(j 1).val, (j 1).isLt⟩

/-- The left operand's row coordinate at an output entry is the entry's row. -/
theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contracted one. -/
theorem lhs_col (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row coordinate is the contracted one. -/
theorem rhs_row (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
/-- Its column coordinate is the entry's column. -/
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one stored value at an entry of the block: the sum over the 128 contracted columns. -/
theorem block_product (x : FVec Ideal S5000x128 .f32) (w : FVec Ideal S128x128 .f32) (j : S5000x128.Idx) :
    k2_pay1 (F := Ideal) x w j = ∑ k : Fin 128, x (rowOf j k) * w (colOf j k) := by
  unfold k2_pay1
  refine (Ideal.matmul_constant_zero_apply dot_S5000x128_S128x128_S5000x128_1_0_0_1_n_n none
    (truncf .bf16 (shapeCast S5000x128 x shapeCasts_S5000x128_S5000x128) bitsLt_bf16_f32) (truncf .bf16 w bitsLt_bf16_f32) j).trans ?_
  show ∑ q : dot_S5000x128_S128x128_S5000x128_1_0_0_1_n_n.contr.Idx, shapeCast S5000x128 x shapeCasts_S5000x128_S5000x128 (dot_S5000x128_S128x128_S5000x128_1_0_0_1_n_n.lhsIdx j q) * w (dot_S5000x128_S128x128_S5000x128_1_0_0_1_n_n.rhsIdx j q) = _
  rw [shapeCast_self, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowOf j k := funext fun a => Fin.ext (by
    match a with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = colOf j k := funext fun a => Fin.ext (by
    match a with
    | ⟨0, _⟩ => exact (rhs_row _ _).trans hk
    | ⟨1, _⟩ => exact rhs_col _ _)
  rw [el, er]

/-- Where each window's block sits at grid point `t`, decided over the ten points: the activations block and the
    output block are row block `t`, the weights are always the one whole block. -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The product of an activations array and a weight matrix, entry by entry. -/
abbrev productOf (h : Cert.ReferenceIdeal.S50000x128.Idx → EReal) (w : Cert.ReferenceIdeal.S128x128.Idx → EReal) :
    Cert.ReferenceIdeal.S50000x128.Idx → EReal := fun i =>
  ∑ k : Fin 128, h (Cert.ReferenceIdeal.Read.lidx_main_v87 i k) * w (Cert.ReferenceIdeal.Read.ridx_main_v87 i k)

/-- What grid point `t` writes back is row block `t` of the whole product. -/
theorem written_block (c : Dev nD) (t : Fin cfg2.N) :
    (dat2 (F := Ideal) V c).flushed 2 t = ((cfg2.win 2).blk t).view.read (Elt Ideal) (productOf (V c main_v86) (V c main_arg7)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  funext j
  show k2_pay1 (F := Ideal) (iblk2 V c 0 t) (iblk2 V c 1 t) j = productOf (V c main_v86) (V c main_arg7) (((cfg2.win 2).blk t).view.emb j)
  refine (block_product (iblk2 V c 0 t) (iblk2 V c 1 t) j).trans ?_
  obtain ⟨e0, e1, e2, e3, e4, e5⟩ := block_positions t
  refine Finset.sum_congr rfl fun k _ => ?_
  have hx : iblk2 V c 0 t (rowOf j k)
      = V c main_v86 (Cert.ReferenceIdeal.Read.lidx_main_v87 (((cfg2.win 2).blk t).view.emb j) k) := by
    show V c main_v86 (((cfg2.win 0).blk t).view.emb (rowOf j k)) = _
    refine congrArg (V c main_v86) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : iblk2 V c 1 t (colOf j k)
      = V c main_arg7 (Cert.ReferenceIdeal.Read.ridx_main_v87 (((cfg2.win 2).blk t).view.emb j) k) := by
    show V c main_arg7 (((cfg2.win 1).blk t).view.emb (colOf j k)) = _
    refine congrArg (V c main_arg7) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An entry of the output array lies in point `t`'s block exactly when each coordinate lies in the block's range. -/
theorem in_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v87).slice (win2_2.rect t)).set ↔ _
  rw [View.set_slice_whole, Rect.mem_set_unit]
  exact Iff.rfl

/-- Each of the ten row blocks is some grid point's. -/
theorem row_blocks_onto : ∀ q : Fin 10, ∃ t : Fin cfg2.N, win2_2.index t = ![q.val, 0] :=
  (by decide +kernel : ∀ q : Fin 10, ∃ t : Fin grid2.N, win2_2.index t = ![q.val, 0])

/-- Every entry of the output is written: row `r` belongs to row block `r / 5000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := row_blocks_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [in_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the output array is the product of the activations and the weights as the region found them. -/
theorem whole_product (c : Dev nD) : (dat2 (F := Ideal) V c).arrAt 2 cfg2.N = productOf (V c main_v86) (V c main_arg7) :=
  (dat2 V c).arrAt_eq_of_cover 2 _ (fun t _ => written_block V c t) covered

end Cert.KernelIdeal.ThirdProduct

end
-- ==== Proof.SecondProduct.lean ====
/-
  The second matmul region, read as one whole-array function.

  As in the first layer, the grid has ten points and point `t` takes rows `5000·t … 5000·t + 4999` of the previous
  layer's activations (all 128 columns) together with the whole 128 × 128 weight matrix, and writes their product back
  into the same rows of the output. The body first re-casts the activations block to its own shape (the identity) and
  narrows both operands to bf16 (the identity at the ideal instance); the accumulator starts at zero. So entry
  `(r, n)` of the output array ends as `∑ k, h (r, k) · w (k, n)` over the extended reals, the ten row blocks tiling
  the 50000 rows.
-/
import proofs.«134181_j83004537962759_1_alg».proof.Proof.Gen.KernelIdeal.Frame
import proofs.«134181_j83004537962759_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Idealize.ShloMosaic Idealize.ShloMosaic.TcCoe Idealize.SL.Sem
open Cert.KernelIdeal Cert.KernelIdeal.Gen
open Idealize.ShloMosaic.Pipeline (Dat Cfg Window)

theorem zero_offsets : (![0, 0] : Fin 2 → Nat) = fun _ => 0 := funext fun a => by fin_cases a <;> rfl

/-- Entry `(r, k)` of a 5000 × 128 activations block. -/
abbrev rowOf (j : S5000x128.Idx) (k : Fin 128) : S5000x128.Idx := fun a => match a with
  | ⟨0, _⟩ => ⟨(j 0).val, (j 0).isLt⟩
  | ⟨1, _⟩ => ⟨k.val, k.isLt⟩
/-- Entry `(k, n)` of the weight matrix. -/
abbrev colOf (j : S5000x128.Idx) (k : Fin 128) : S128x128.Idx := fun a => match a with
  | ⟨0, _⟩ => ⟨k.val, k.isLt⟩
  | ⟨1, _⟩ => ⟨(j 1).val, (j 1).isLt⟩

/-- The left operand's row coordinate at an output entry is the entry's row. -/
theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column coordinate is the contracted one. -/
theorem lhs_col (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
/-- The right operand's row coordinate is the contracted one. -/
theorem rhs_row (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
/-- Its column coordinate is the entry's column. -/
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's one stored value at an entry of the block: the sum over the 128 contracted columns. -/
theorem block_product (x : FVec Ideal S5000x128 .f32) (w : FVec Ideal S128x128 .f32) (j : S5000x128.Idx) :
    k1_pay1 (F := Ideal) x w j = ∑ k : Fin 128, x (rowOf j k) * w (colOf j k) := by
  unfold k1_pay1
  refine (Ideal.matmul_constant_zero_apply dot_S5000x128_S128x128_S5000x128_1_0_0_1_n_n none
    (truncf .bf16 (shapeCast S5000x128 x shapeCasts_S5000x128_S5000x128) bitsLt_bf16_f32) (truncf .bf16 w bitsLt_bf16_f32) j).trans ?_
  show ∑ q : dot_S5000x128_S128x128_S5000x128_1_0_0_1_n_n.contr.Idx, shapeCast S5000x128 x shapeCasts_S5000x128_S5000x128 (dot_S5000x128_S128x128_S5000x128_1_0_0_1_n_n.lhsIdx j q) * w (dot_S5000x128_S128x128_S5000x128_1_0_0_1_n_n.rhsIdx j q) = _
  rw [shapeCast_self, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowOf j k := funext fun a => Fin.ext (by
    match a with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k) = colOf j k := funext fun a => Fin.ext (by
    match a with
    | ⟨0, _⟩ => exact (rhs_row _ _).trans hk
    | ⟨1, _⟩ => exact rhs_col _ _)
  rw [el, er]

/-- Where each window's block sits at grid point `t`, decided over the ten points: the activations block and the
    output block are row block `t`, the weights are always the one whole block. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The product of an activations array and a weight matrix, entry by entry. -/
abbrev productOf (h : Cert.ReferenceIdeal.S50000x128.Idx → EReal) (w : Cert.ReferenceIdeal.S128x128.Idx → EReal) :
    Cert.ReferenceIdeal.S50000x128.Idx → EReal := fun i =>
  ∑ k : Fin 128, h (Cert.ReferenceIdeal.Read.lidx_main_v49 i k) * w (Cert.ReferenceIdeal.Read.ridx_main_v49 i k)

/-- What grid point `t` writes back is row block `t` of the whole product. -/
theorem written_block (c : Dev nD) (t : Fin cfg1.N) :
    (dat1 (F := Ideal) V c).flushed 2 t = ((cfg1.win 2).blk t).view.read (Elt Ideal) (productOf (V c main_v48) (V c main_arg5)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  funext j
  show k1_pay1 (F := Ideal) (iblk1 V c 0 t) (iblk1 V c 1 t) j = productOf (V c main_v48) (V c main_arg5) (((cfg1.win 2).blk t).view.emb j)
  refine (block_product (iblk1 V c 0 t) (iblk1 V c 1 t) j).trans ?_
  obtain ⟨e0, e1, e2, e3, e4, e5⟩ := block_positions t
  refine Finset.sum_congr rfl fun k _ => ?_
  have hx : iblk1 V c 0 t (rowOf j k)
      = V c main_v48 (Cert.ReferenceIdeal.Read.lidx_main_v49 (((cfg1.win 2).blk t).view.emb j) k) := by
    show V c main_v48 (((cfg1.win 0).blk t).view.emb (rowOf j k)) = _
    refine congrArg (V c main_v48) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hw : iblk1 V c 1 t (colOf j k)
      = V c main_arg5 (Cert.ReferenceIdeal.Read.ridx_main_v49 (((cfg1.win 2).blk t).view.emb j) k) := by
    show V c main_arg5 (((cfg1.win 1).blk t).view.emb (colOf j k)) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [hx, hw]

/-- An entry of the output array lies in point `t`'s block exactly when each coordinate lies in the block's range. -/
theorem in_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v49).slice (win1_2.rect t)).set ↔ _
  rw [View.set_slice_whole, Rect.mem_set_unit]
  exact Iff.rfl

/-- Each of the ten row blocks is some grid point's. -/
theorem row_blocks_onto : ∀ q : Fin 10, ∃ t : Fin cfg1.N, win1_2.index t = ![q.val, 0] :=
  (by decide +kernel : ∀ q : Fin 10, ∃ t : Fin grid1.N, win1_2.index t = ![q.val, 0])

/-- Every entry of the output is written: row `r` belongs to row block `r / 5000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := row_blocks_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [in_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the product of the activations and the weights as the region found them. -/
theorem whole_product (c : Dev nD) : (dat1 (F := Ideal) V c).arrAt 2 cfg1.N = productOf (V c main_v48) (V c main_arg5) :=
  (dat1 V c).arrAt_eq_of_cover 2 _ (fun t _ => written_block V c t) covered

end Cert.KernelIdeal.SecondProduct

end
-- ==== Proof.FirstProduct.lean ====
/-
  The first matmul region, read as one whole-array function.

  The region's grid has ten points; point `t` loads rows `5000·t … 5000·t + 4999` of the node features (all 384
  columns) and the whole 384 × 128 weight matrix, and writes back the product of the two into the same rows of the
  output. At the ideal instance the narrowing of both operands to bf16 is the identity and the accumulator starts at
  zero, so entry `(r, n)` of the block is `∑ k, x (r, k) · w (k, n)` over the extended reals. The ten row blocks
  tile the 50000 rows, so the output array ends as the product of the whole feature matrix with the weights: the
  same index-by-index sum the reference's `dot_general` denotes.
-/
import proofs.«134181_j83004537962759_1_alg».proof.Proof.Gen.KernelIdeal.Frame
import proofs.«134181_j83004537962759_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Idealize.ShloMosaic Idealize.ShloMosaic.TcCoe Idealize.SL.Sem
open Cert.KernelIdeal Cert.KernelIdeal.Gen
open Idealize.ShloMosaic.Pipeline (Dat Cfg Window)

theorem zero_offsets : (![0, 0] : Fin 2 → Nat) = fun _ => 0 := funext fun a => by fin_cases a <;> rfl

/-- Entry `(r, k)` of a 5000 × 384 block. -/
abbrev rowOf (j : S5000x128.Idx) (k : Fin 384) : S5000x384.Idx := fun a => match a with
  | ⟨0, _⟩ => ⟨(j 0).val, (j 0).isLt⟩
  | ⟨1, _⟩ => ⟨k.val, k.isLt⟩
/-- Entry `(k, n)` of the weight matrix. -/
abbrev colOf (j : S5000x128.Idx) (k : Fin 384) : S384x128.Idx := fun a => match a with
  | ⟨0, _⟩ => ⟨k.val, k.isLt⟩
  | ⟨1, _⟩ => ⟨(j 1).val, (j 1).isLt⟩

/-- The left operand's row coordinate at an output entry is the entry's row. -/
theorem lhs_row (j : S5000x128.Idx) (q : dot_S5000x384_S384x128_S5000x128_1_0_0_1_n_n.contr.Idx) : (dot_S5000x384_S384x128_S5000x128_1_0_0_1_n_n.lhsIdx j q 0).val = (j 0).val := by
  unfold DotDims.lhsIdx
  rw [dif_neg (show ¬(0 : Fin S5000x384.rank) ∈ dot_S5000x384_S384x128_S5000x128_1_0_0_1_n_n.lhsBatch by decide), dif_pos (show (0 : Fin S5000x384.rank) ∈ dot_S5000x384_S384x128_S5000x128_1_0_0_1_n_n.lhsNonContracting by decide)]
  rfl
/-- Its column coordinate is the contracted one. -/
theorem lhs_col (j : S5000x128.Idx) (q : dot_S5000x384_S384x128_S5000x128_1_0_0_1_n_n.contr.Idx) : (dot_S5000x384_S384x128_S5000x128_1_0_0_1_n_n.lhsIdx j q 1).val = (q ⟨0, by decide⟩).val :=
  dot_S5000x384_S384x128_S5000x128_1_0_0_1_n_n.lhsIdx_val_of_single rfl j q
/-- The right operand's row coordinate is the contracted one. -/
theorem rhs_row (j : S5000x128.Idx) (q : dot_S5000x384_S384x128_S5000x128_1_0_0_1_n_n.contr.Idx) : (dot_S5000x384_S384x128_S5000x128_1_0_0_1_n_n.rhsIdx j q 0).val = (q ⟨0, by decide⟩).val :=
  dot_S5000x384_S384x128_S5000x128_1_0_0_1_n_n.rhsIdx_val_of_single rfl j q
/-- Its column coordinate is the entry's column. -/
theorem rhs_col (j : S5000x128.Idx) (q : dot_S5000x384_S384x128_S5000x128_1_0_0_1_n_n.contr.Idx) : (dot_S5000x384_S384x128_S5000x128_1_0_0_1_n_n.rhsIdx j q 1).val = (j 1).val := by
  unfold DotDims.rhsIdx
  rw [dif_neg (show ¬(1 : Fin S384x128.rank) ∈ dot_S5000x384_S384x128_S5000x128_1_0_0_1_n_n.rhsBatch by decide), dif_pos (show (1 : Fin S384x128.rank) ∈ dot_S5000x384_S384x128_S5000x128_1_0_0_1_n_n.rhsNonContracting by decide)]
  rfl

/-- The body's one stored value at an entry of the block: the sum over the 384 contracted columns. -/
theorem block_product (x : FVec Ideal S5000x384 .f32) (w : FVec Ideal S384x128 .f32) (j : S5000x128.Idx) :
    k0_pay1 (F := Ideal) x w j = ∑ k : Fin 384, x (rowOf j k) * w (colOf j k) := by
  unfold k0_pay1
  refine (Ideal.matmul_constant_zero_apply dot_S5000x384_S384x128_S5000x128_1_0_0_1_n_n none
    (truncf .bf16 x bitsLt_bf16_f32) (truncf .bf16 w bitsLt_bf16_f32) j).trans ?_
  show ∑ q : dot_S5000x384_S384x128_S5000x128_1_0_0_1_n_n.contr.Idx, x (dot_S5000x384_S384x128_S5000x128_1_0_0_1_n_n.lhsIdx j q) * w (dot_S5000x384_S384x128_S5000x128_1_0_0_1_n_n.rhsIdx j q) = _
  rw [← Equiv.sum_comp (ValueIdx.contrEquiv1 dot_S5000x384_S384x128_S5000x128_1_0_0_1_n_n 384 rfl rfl).symm]
  refine Finset.sum_congr rfl fun k _ => ?_
  have hk := ValueIdx.contrEquiv1_symm_val dot_S5000x384_S384x128_S5000x128_1_0_0_1_n_n 384 rfl rfl k
  have el : dot_S5000x384_S384x128_S5000x128_1_0_0_1_n_n.lhsIdx j ((ValueIdx.contrEquiv1 dot_S5000x384_S384x128_S5000x128_1_0_0_1_n_n 384 rfl rfl).symm k) = rowOf j k := funext fun a => Fin.ext (by
    match a with
    | ⟨0, _⟩ => exact lhs_row _ _
    | ⟨1, _⟩ => exact (lhs_col _ _).trans hk)
  have er : dot_S5000x384_S384x128_S5000x128_1_0_0_1_n_n.rhsIdx j ((ValueIdx.contrEquiv1 dot_S5000x384_S384x128_S5000x128_1_0_0_1_n_n 384 rfl rfl).symm k) = colOf j k := funext fun a => Fin.ext (by
    match a with
    | ⟨0, _⟩ => exact (rhs_row _ _).trans hk
    | ⟨1, _⟩ => exact rhs_col _ _)
  rw [el, er]

/-- Where each window's block sits at grid point `t`, decided over the ten points: the feature block and the output
    block are row block `t`, the weights are always the one whole block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is row block `t` of the whole product. -/
theorem written_block (c : Dev nD) (t : Fin cfg0.N) :
    (dat0 (F := Ideal) V c).flushed 2 t = ((cfg0.win 2).blk t).view.read (Elt Ideal)
      (Cert.ReferenceIdeal.Read.val_main_v11 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x384) zero_offsets, View.ld_unit_zero (S := S384x128) zero_offsets]
  funext j
  show k0_pay1 (F := Ideal) (iblk0 V c 0 t) (iblk0 V c 1 t) j
      = Cert.ReferenceIdeal.Read.val_main_v11 (F := Ideal) (V c main_arg0) (V c main_arg3) (((cfg0.win 2).blk t).view.emb j)
  refine (block_product (iblk0 V c 0 t) (iblk0 V c 1 t) j).trans ?_
  refine Eq.trans ?_ (Cert.ReferenceIdeal.Read.val_main_v11_apply (V c main_arg0) (V c main_arg3) _).symm
  obtain ⟨e0, e1, e2, e3, e4, e5⟩ := block_positions t
  refine Finset.sum_congr rfl fun k _ => ?_
  have hx : iblk0 V c 0 t (rowOf j k)
      = V c main_arg0 (Cert.ReferenceIdeal.Read.lidx_main_v11 (((cfg0.win 2).blk t).view.emb j) k) := by
    show V c main_arg0 (((cfg0.win 0).blk t).view.emb (rowOf j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 384 + 1 * k.val = k.val; omega
  have hw : iblk0 V c 1 t (colOf j k)
      = V c main_arg3 (Cert.ReferenceIdeal.Read.ridx_main_v11 (((cfg0.win 2).blk t).view.emb j) k) := by
    show V c main_arg3 (((cfg0.win 1).blk t).view.emb (colOf j k)) = _
    refine congrArg (V c main_arg3) (funext fun a => Fin.ext ?_)
    match a with
    | ⟨0, _⟩ => show win0_1.index t (0 : Fin 2) * 384 + 1 * k.val = k.val; omega
    | ⟨1, _⟩ => show win0_1.index t (1 : Fin 2) * 128 + 1 * (j 1).val = win0_2.index t (1 : Fin 2) * 128 + 1 * (j 1).val; omega
  rw [hx, hw]

/-- An entry of the output array lies in point `t`'s block exactly when each coordinate lies in the block's range. -/
theorem in_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- Each of the ten row blocks is some grid point's. -/
theorem row_blocks_onto : ∀ q : Fin 10, ∃ t : Fin cfg0.N, win0_2.index t = ![q.val, 0] :=
  (by decide +kernel : ∀ q : Fin 10, ∃ t : Fin grid0.N, win0_2.index t = ![q.val, 0])

/-- Every entry of the output is written: row `r` belongs to row block `r / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := row_blocks_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the product of the feature matrix and the weights as the region found
    them: the reference's first `dot_general` of the same two arrays. -/
theorem whole_product (c : Dev nD) :
    (dat0 (F := Ideal) V c).arrAt 2 cfg0.N
      = Cert.ReferenceIdeal.Read.val_main_v11 (F := Ideal) (V c main_arg0) (V c main_arg3) :=
  (dat0 V c).arrAt_eq_of_cover 2 _ (fun t _ => written_block V c t) covered

end Cert.KernelIdeal.FirstProduct

end
-- ==== Proof.Layer1.lean ====
/-
  The first graph-convolution layer, read against the reference's stages.

  The first region leaves the product of the node features with the first weight matrix, the reference's first
  `dot_general`. The host operations that follow gather the product's rows at the edge sources, scale them by
  `dis[src] · dis[dst]`, scatter-add them into the destination rows, add the self-loop term `h · dis²` and the bias,
  and take the maximum with zero. The reference applies the same operations to the same product, sources,
  destinations, normalisation and bias, so each buffer holds the reference's stage of the same number.
-/
import proofs.«134181_j83004537962759_1_alg».proof.Proof.Gen.KernelIdeal.Frame
import proofs.«134181_j83004537962759_1_alg».proof.Proof.Gen.ReferenceIdeal.Read
import proofs.«134181_j83004537962759_1_alg».proof.Proof.Carried
import proofs.«134181_j83004537962759_1_alg».proof.Proof.LibTypedRef
import proofs.«134181_j83004537962759_1_alg».proof.Proof.FirstProduct

set_option maxRecDepth 16384

noncomputable section

namespace Cert.KernelIdeal.Layer1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After the first region its output array is the reference's first product of the launch arrays. -/
theorem product (c : Dev nD) :
    W2 (F := Ideal) m ρ c (Proc.devRef .tc main_v11)
      = Cert.ReferenceIdeal.Read.val_main_v11 (F := Ideal) (m ((c : Thread nD τ).loc main_arg0)) (m ((c : Thread nD τ).loc main_arg3)) := by
  refine (W2_arr m ρ c 2).trans ?_
  refine (Cert.KernelIdeal.FirstProduct.whole_product (V1 m ρ) c).trans ?_
  exact congrArg₂ (Cert.ReferenceIdeal.Read.val_main_v11 (F := Ideal)) (Cert.KernelIdeal.Carried.arg0_at_1 m ρ c) (Cert.KernelIdeal.Carried.arg3_at_1 m ρ c)

/-- The layer's aggregate before the maximum with zero. -/
theorem pre_activations (c : Dev nD) :
    W3 (F := Ideal) m ρ c (Proc.devRef .tc main_v47)
      = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v47) = _
  after_results_simp
  rw [Cert.KernelIdeal.Carried.sources_at_2 m ρ c, Cert.KernelIdeal.Carried.destinations_at_2 m ρ c, Cert.KernelIdeal.Carried.normalisation_at_2 m ρ c, product m ρ c, Cert.KernelIdeal.Carried.arg4_at_2 m ρ c]
  rfl

/-- The layer's activations, as the next region finds them: the maximum of the aggregate with zero. -/
theorem activations (c : Dev nD) :
    W4 (F := Ideal) m ρ c (Proc.devRef .tc main_v48)
      = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) := by
  show StableHlo.after hostOps1_1 (W3 m ρ c) (Proc.devRef .tc main_v48) = _
  have hpre := pre_activations m ρ c
  generalize W3 (F := Ideal) m ρ c = contents at hpre ⊢
  after_results_simp
  rw [hpre]
  unfold Cert.ReferenceIdeal.Read.val_main_v48
  generalize Cert.ReferenceIdeal.Read.val_main_v47 (F := Ideal) (m ((c : Thread nD τ).loc main_arg0)) (m ((c : Thread nD τ).loc main_arg1)) (m ((c : Thread nD τ).loc main_arg3)) (m ((c : Thread nD τ).loc main_arg4)) = aggregate
  rw [TRef.ofBuf_toBuf, TRef.ofBuf_toBuf]
  have hzero : (broadcastInDim S50000x128 ![] bcast_S_S50000x128 (constant (F := Ideal) S_ .f32 0x00000000#32)
      : BufTy.Contents (Elt Ideal) ⟨S50000x128, .f32⟩) = Cert.ReferenceIdeal.Read.val_main_call0_v0 (F := Ideal) := rfl
  rw [hzero]
  generalize Cert.ReferenceIdeal.Read.val_main_call0_v0 (F := Ideal) = zeros
  exact eq_of_heq ((cast_heq _ _).trans (heq_of_eq (congrArg (fun a => maximumf (F := Ideal) (φ := .f32) a zeros) (eq_of_heq (cast_heq _ _)))))

end Cert.KernelIdeal.Layer1

end
-- ==== Proof.Layer2.lean ====
/-
  The second graph-convolution layer, read against the reference's stages.

  The second region multiplies the first layer's activations by the second weight matrix; the host operations that
  follow aggregate over the edges, add the self-loop term and the bias and take the maximum with zero, exactly as in
  the first layer. The reference applies the same operations to the same operands, so each buffer holds the
  reference's stage of the same number.
-/
import proofs.«134181_j83004537962759_1_alg».proof.Proof.Gen.KernelIdeal.Frame
import proofs.«134181_j83004537962759_1_alg».proof.Proof.Gen.ReferenceIdeal.Read
import proofs.«134181_j83004537962759_1_alg».proof.Proof.Carried
import proofs.«134181_j83004537962759_1_alg».proof.Proof.LibTypedRef
import proofs.«134181_j83004537962759_1_alg».proof.Proof.SecondProduct
import proofs.«134181_j83004537962759_1_alg».proof.Proof.Layer1

set_option maxRecDepth 16384

noncomputable section

namespace Cert.KernelIdeal.Layer2

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After the second region its output array is the reference's product of the previous activations with the layer's
    weights: entry by entry the same sum. -/
theorem product (c : Dev nD) :
    W5 (F := Ideal) m ρ c (Proc.devRef .tc main_v49)
      = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ?_
  refine (Cert.KernelIdeal.SecondProduct.whole_product (V4 m ρ) c).trans ?_
  refine (congrArg₂ Cert.KernelIdeal.SecondProduct.productOf (Cert.KernelIdeal.Layer1.activations m ρ c) (Cert.KernelIdeal.Carried.arg5_at_4 m ρ c)).trans ?_
  exact funext fun i => (Cert.ReferenceIdeal.Read.val_main_v49_apply (m ((c : Thread nD τ).loc main_arg0)) (m ((c : Thread nD τ).loc main_arg1)) (m ((c : Thread nD τ).loc main_arg3)) (m ((c : Thread nD τ).loc main_arg4)) (m ((c : Thread nD τ).loc main_arg5)) i).symm

/-- The layer's aggregate before the maximum with zero. -/
theorem pre_activations (c : Dev nD) :
    W6 (F := Ideal) m ρ c (Proc.devRef .tc main_v85)
      = Cert.ReferenceIdeal.Read.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W5 m ρ c) (Proc.devRef .tc main_v85) = _
  after_results_simp
  rw [Cert.KernelIdeal.Carried.sources_at_5 m ρ c, Cert.KernelIdeal.Carried.destinations_at_5 m ρ c, Cert.KernelIdeal.Carried.normalisation_at_5 m ρ c, product m ρ c, Cert.KernelIdeal.Carried.arg6_at_5 m ρ c]
  rfl

/-- The layer's activations, as the next region finds them: the maximum of the aggregate with zero. -/
theorem activations (c : Dev nD) :
    W7 (F := Ideal) m ρ c (Proc.devRef .tc main_v86)
      = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2_1 (W6 m ρ c) (Proc.devRef .tc main_v86) = _
  have hpre := pre_activations m ρ c
  generalize W6 (F := Ideal) m ρ c = contents at hpre ⊢
  after_results_simp
  rw [hpre]
  unfold Cert.ReferenceIdeal.Read.val_main_v86
  generalize Cert.ReferenceIdeal.Read.val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) = aggregate
  rw [TRef.ofBuf_toBuf, TRef.ofBuf_toBuf]
  have hzero : (broadcastInDim S50000x128 ![] bcast_S_S50000x128 (constant (F := Ideal) S_ .f32 0x00000000#32)
      : BufTy.Contents (Elt Ideal) ⟨S50000x128, .f32⟩) = Cert.ReferenceIdeal.Read.val_main_call1_v0 (F := Ideal) := rfl
  rw [hzero]
  generalize Cert.ReferenceIdeal.Read.val_main_call1_v0 (F := Ideal) = zeros
  exact eq_of_heq ((cast_heq _ _).trans (heq_of_eq (congrArg (fun a => maximumf (F := Ideal) (φ := .f32) a zeros) (eq_of_heq (cast_heq _ _)))))

end Cert.KernelIdeal.Layer2

end
-- ==== Proof.Layer3.lean ====
/-
  The third graph-convolution layer, read against the reference's stages.

  The third region multiplies the second layer's activations by the third weight matrix; the host operations that
  follow aggregate over the edges, add the self-loop term and the bias and take the maximum with zero, exactly as in
  the first two layers. The reference applies the same operations to the same operands, so each buffer holds the
  reference's stage of the same number.
-/
import proofs.«134181_j83004537962759_1_alg».proof.Proof.Gen.KernelIdeal.Frame
import proofs.«134181_j83004537962759_1_alg».proof.Proof.Gen.ReferenceIdeal.Read
import proofs.«134181_j83004537962759_1_alg».proof.Proof.Carried
import proofs.«134181_j83004537962759_1_alg».proof.Proof.LibTypedRef
import proofs.«134181_j83004537962759_1_alg».proof.Proof.ThirdProduct
import proofs.«134181_j83004537962759_1_alg».proof.Proof.Layer2

set_option maxRecDepth 16384

noncomputable section

namespace Cert.KernelIdeal.Layer3

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- After the third region its output array is the reference's product of the previous activations with the layer's
    weights: entry by entry the same sum. -/
theorem product (c : Dev nD) :
    W8 (F := Ideal) m ρ c (Proc.devRef .tc main_v87)
      = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ?_
  refine (Cert.KernelIdeal.ThirdProduct.whole_product (V7 m ρ) c).trans ?_
  refine (congrArg₂ Cert.KernelIdeal.ThirdProduct.productOf (Cert.KernelIdeal.Layer2.activations m ρ c) (Cert.KernelIdeal.Carried.arg7_at_7 m ρ c)).trans ?_
  exact funext fun i => (Cert.ReferenceIdeal.Read.val_main_v87_apply (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) i).symm

/-- The layer's aggregate before the maximum with zero. -/
theorem pre_activations (c : Dev nD) :
    W9 (F := Ideal) m ρ c (Proc.devRef .tc main_v123)
      = Cert.ReferenceIdeal.Read.val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W8 m ρ c) (Proc.devRef .tc main_v123) = _
  after_results_simp
  rw [Cert.KernelIdeal.Carried.sources_at_8 m ρ c, Cert.KernelIdeal.Carried.destinations_at_8 m ρ c, Cert.KernelIdeal.Carried.normalisation_at_8 m ρ c, product m ρ c, Cert.KernelIdeal.Carried.arg8_at_8 m ρ c]
  rfl

/-- The layer's activations, as the next region finds them: the maximum of the aggregate with zero. -/
theorem activations (c : Dev nD) :
    W10 (F := Ideal) m ρ c (Proc.devRef .tc main_v124)
      = Cert.ReferenceIdeal.Read.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3_1 (W9 m ρ c) (Proc.devRef .tc main_v124) = _
  have hpre := pre_activations m ρ c
  generalize W9 (F := Ideal) m ρ c = contents at hpre ⊢
  after_results_simp
  rw [hpre]
  unfold Cert.ReferenceIdeal.Read.val_main_v124
  generalize Cert.ReferenceIdeal.Read.val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = aggregate
  rw [TRef.ofBuf_toBuf, TRef.ofBuf_toBuf]
  have hzero : (broadcastInDim S50000x128 ![] bcast_S_S50000x128 (constant (F := Ideal) S_ .f32 0x00000000#32)
      : BufTy.Contents (Elt Ideal) ⟨S50000x128, .f32⟩) = Cert.ReferenceIdeal.Read.val_main_call2_v0 (F := Ideal) := rfl
  rw [hzero]
  generalize Cert.ReferenceIdeal.Read.val_main_call2_v0 (F := Ideal) = zeros
  exact eq_of_heq ((cast_heq _ _).trans (heq_of_eq (congrArg (fun a => maximumf (F := Ideal) (φ := .f32) a zeros) (eq_of_heq (cast_heq _ _)))))

end Cert.KernelIdeal.Layer3

end
-- ==== Proof.Pooling.lean ====
/-
  The mean pool over graphs and the head's first bias row, read against the reference's stages.

  After the third layer the program counts the nodes of each graph by a scatter-add of ones along the graph
  assignment, sums the activations of each graph's nodes by a scatter-add of the rows, and divides each graph's sum
  by the maximum of its count and one. The reference applies the same operations to the same activations and the same
  assignment, so the pooled features hold the reference's stage of the same number.
-/
import proofs.«134181_j83004537962759_1_alg».proof.Proof.Gen.KernelIdeal.Frame
import proofs.«134181_j83004537962759_1_alg».proof.Proof.Gen.ReferenceIdeal.Read
import proofs.«134181_j83004537962759_1_alg».proof.Proof.Carried
import proofs.«134181_j83004537962759_1_alg».proof.Proof.Layer3
import Idealize.ShloMosaic.Lib.Pipeline.Value

set_option maxRecDepth 16384

noncomputable section

namespace Cert.KernelIdeal.Pooling

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The pooled graph features, as the fourth region finds them. -/
theorem pooled (c : Dev nD) :
    W11 (F := Ideal) m ρ c (Proc.devRef .tc main_v136)
      = Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3_2 (W10 m ρ c) (Proc.devRef .tc main_v136) = _
  have hact := Cert.KernelIdeal.Layer3.activations m ρ c
  have hbatch := Cert.KernelIdeal.Carried.arg2_at_10 m ρ c
  generalize W10 (F := Ideal) m ρ c = contents at hact hbatch ⊢
  after_results_simp
  rw [hact, hbatch]
  rfl

end Cert.KernelIdeal.Pooling

end
-- ==== Proof.BiasRows.lean ====
/-
  The head's two bias arrays as the regions find them.

  Before each head region a host reshape re-lays that region's bias for the kernel: the first bias, a vector of 64
  entries, becomes a 1 × 64 row, and the last bias, a vector of one entry, becomes a 1 × 1 array. A reshape keeps the
  row-major order of the entries, so entry `(0, n)` of the row is entry `n` of the vector, and the one entry of the
  1 × 1 array is the one entry of the vector.
-/
import proofs.«134181_j83004537962759_1_alg».proof.Proof.Gen.KernelIdeal.Frame
import proofs.«134181_j83004537962759_1_alg».proof.Proof.Gen.ReferenceIdeal.Read
import proofs.«134181_j83004537962759_1_alg».proof.Proof.Carried
import Idealize.ShloMosaic.Lib.Pipeline.Value

set_option maxRecDepth 16384

noncomputable section

namespace Cert.KernelIdeal.BiasRows

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The head's first bias as a 1 × 64 row, as the fourth region finds it. -/
theorem first_bias_row (c : Dev nD) (j : S1x64.Idx) :
    W11 (F := Ideal) m ρ c (Proc.devRef .tc main_v137) j = (m ((c : Thread nD τ).loc main_arg10)) (Cert.ReferenceIdeal.Read.idx_main_v138 j) := by
  show StableHlo.after hostOps3_2 (W10 m ρ c) (Proc.devRef .tc main_v137) j = _
  have hbias := Cert.KernelIdeal.Carried.arg10_at_10 m ρ c
  generalize W10 (F := Ideal) m ρ c = contents at hbias ⊢
  after_results_simp
  rw [hbias]
  refine shapeCast_apply (m ((c : Thread nD τ).loc main_arg10)) shapeCasts_S64_S1x64 j (Cert.ReferenceIdeal.Read.idx_main_v138 j) ?_
  refine (Shape.rowMajor_val_one (d := ![64]) (Cert.ReferenceIdeal.Read.idx_main_v138 j)).trans ?_
  refine Eq.trans ?_ (Shape.rowMajor_val_two (d := ![1, 64]) j).symm
  show (j 1).val = (j 0).val * 64 + (j 1).val
  have h0 : (j 0).val < 1 := (j 0).isLt
  omega

/-- The head's last bias as a 1 × 1 array, as the last region finds it. -/
theorem last_bias (c : Dev nD) (j : S1x1.Idx) :
    W13 (F := Ideal) m ρ c (Proc.devRef .tc main_v139) j = (m ((c : Thread nD τ).loc main_arg12)) (Cert.ReferenceIdeal.Read.idx_main_v143 j) := by
  show StableHlo.after hostOps4 (W12 m ρ c) (Proc.devRef .tc main_v139) j = _
  have hbias := Cert.KernelIdeal.Carried.arg12_at_12 m ρ c
  generalize W12 (F := Ideal) m ρ c = contents at hbias ⊢
  after_results_simp
  rw [hbias]
  refine shapeCast_apply (m ((c : Thread nD τ).loc main_arg12)) shapeCasts_S1_S1x1 j (Cert.ReferenceIdeal.Read.idx_main_v143 j) ?_
  refine (Shape.rowMajor_val_one (d := ![1]) (Cert.ReferenceIdeal.Read.idx_main_v143 j)).trans ?_
  refine Eq.trans ?_ (Shape.rowMajor_val_two (d := ![1, 1]) j).symm
  show 0 = (j 0).val * 1 + (j 1).val
  have h0 : (j 0).val < 1 := (j 0).isLt
  have h1 : (j 1).val < 1 := (j 1).isLt
  omega

end Cert.KernelIdeal.BiasRows

end
-- ==== Proof.HiddenHead.lean ====
/-
  The first region of the readout head, read as one whole-array function.

  The grid has a single point. It loads the 64 × 128 pooled graph features, the 128 × 64 weight matrix and the bias as
  a 1 × 64 row, multiplies the first two (both narrowed to bf16, the identity at the ideal instance; accumulator zero),
  adds the bias row to every row of the product and takes the maximum with zero. So entry `(g, n)` of the output is
  `max (∑ k, p (g, k) · w (k, n) + b (0, n)) 0` over the extended reals, and the one block is the whole array.
-/
import proofs.«134181_j83004537962759_1_alg».proof.Proof.Gen.KernelIdeal.Frame
import proofs.«134181_j83004537962759_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.HiddenHead

open Idealize.ShloMosaic Idealize.ShloMosaic.TcCoe Idealize.SL.Sem
open Cert.KernelIdeal Cert.KernelIdeal.Gen
open Idealize.ShloMosaic.Pipeline (Dat Cfg Window)

theorem zero_offsets : (![0, 0] : Fin 2 → Nat) = fun _ => 0 := funext fun a => by fin_cases a <;> rfl

/-- Entry `(g, k)` of the left operand. -/
abbrev rowOf (j : S64x64.Idx) (k : Fin 128) : S64x128.Idx := fun a => match a with
  | ⟨0, _⟩ => ⟨(j 0).val, (j 0).isLt⟩
  | ⟨1, _⟩ => ⟨k.val, k.isLt⟩
/-- Entry `(k, n)` of the weight matrix. -/
abbrev colOf (j : S64x64.Idx) (k : Fin 128) : S128x64.Idx := fun a => match a with
  | ⟨0, _⟩ => ⟨k.val, k.isLt⟩
  | ⟨1, _⟩ => ⟨(j 1).val, (j 1).isLt⟩
/-- The bias row's entry under column `n`. -/
abbrev biasAt (j : S64x64.Idx) : S1x64.Idx := fun a => match a with
  | ⟨0, _⟩ => ⟨0, Nat.one_pos⟩
  | ⟨1, _⟩ => ⟨(j 1).val, (j 1).isLt⟩

/-- The left operand's row coordinate at an output entry is the entry's row. -/
theorem lhs_row (j : S64x64.Idx) (q : dot_S64x128_S128x64_S64x64_1_0_0_1_n_n.contr.Idx) : (dot_S64x128_S128x64_S64x64_1_0_0_1_n_n.lhsIdx j q 0).val = (j 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
/-- Its column coordinate is the contracted one. -/
theorem lhs_col (j : S64x64.Idx) (q : dot_S64x128_S128x64_S64x64_1_0_0_1_n_n.contr.Idx) : (dot_S64x128_S128x64_S64x64_1_0_0_1_n_n.lhsIdx j q 1).val = (q ⟨0, by decide⟩).val :=
  dot_S64x128_S128x64_S64x64_1_0_0_1_n_n.lhsIdx_val_of_single rfl j q
/-- The right operand's row coordinate is the contracted one. -/
theorem rhs_row (j : S64x64.Idx) (q : dot_S64x128_S128x64_S64x64_1_0_0_1_n_n.contr.Idx) : (dot_S64x128_S128x64_S64x64_1_0_0_1_n_n.rhsIdx j q 0).val = (q ⟨0, by decide⟩).val :=
  dot_S64x128_S128x64_S64x64_1_0_0_1_n_n.rhsIdx_val_of_single rfl j q
/-- Its column coordinate is the entry's column. -/
theorem rhs_col (j : S64x64.Idx) (q : dot_S64x128_S128x64_S64x64_1_0_0_1_n_n.contr.Idx) : (dot_S64x128_S128x64_S64x64_1_0_0_1_n_n.rhsIdx j q 1).val = (j 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

/-- The product part of the body at an entry: the sum over the 128 contracted columns. -/
theorem product_at (x : FVec Ideal S64x128 .f32) (w : FVec Ideal S128x64 .f32) (j : S64x64.Idx) :
    FloatOps.matmul dot_S64x128_S128x64_S64x64_1_0_0_1_n_n none (truncf .bf16 (shapeCast S64x128 x shapeCasts_S64x128_S64x128) bitsLt_bf16_f32)
      (truncf .bf16 w bitsLt_bf16_f32) (constant S64x64 .f32 0x00000000#32) j
      = ∑ k : Fin 128, x (rowOf j k) * w (colOf j k) := by
  refine (Ideal.matmul_constant_zero_apply dot_S64x128_S128x64_S64x64_1_0_0_1_n_n none
    (truncf .bf16 (shapeCast S64x128 x shapeCasts_S64x128_S64x128) bitsLt_bf16_f32) (truncf .bf16 w bitsLt_bf16_f32) j).trans ?_
  show ∑ q : dot_S64x128_S128x64_S64x64_1_0_0_1_n_n.contr.Idx, shapeCast S64x128 x shapeCasts_S64x128_S64x128 (dot_S64x128_S128x64_S64x64_1_0_0_1_n_n.lhsIdx j q) * w (dot_S64x128_S128x64_S64x64_1_0_0_1_n_n.rhsIdx j q) = _
  rw [shapeCast_self, ← Equiv.sum_comp (ValueIdx.contrEquiv1 dot_S64x128_S128x64_S64x64_1_0_0_1_n_n 128 rfl rfl).symm]
  refine Finset.sum_congr rfl fun k _ => ?_
  have hk := ValueIdx.contrEquiv1_symm_val dot_S64x128_S128x64_S64x64_1_0_0_1_n_n 128 rfl rfl k
  have el : dot_S64x128_S128x64_S64x64_1_0_0_1_n_n.lhsIdx j ((ValueIdx.contrEquiv1 dot_S64x128_S128x64_S64x64_1_0_0_1_n_n 128 rfl rfl).symm k) = rowOf j k := funext fun a => Fin.ext (by
    match a with
    | ⟨0, _⟩ => exact lhs_row _ _
    | ⟨1, _⟩ => exact (lhs_col _ _).trans hk)
  have er : dot_S64x128_S128x64_S64x64_1_0_0_1_n_n.rhsIdx j ((ValueIdx.contrEquiv1 dot_S64x128_S128x64_S64x64_1_0_0_1_n_n 128 rfl rfl).symm k) = colOf j k := funext fun a => Fin.ext (by
    match a with
    | ⟨0, _⟩ => exact (rhs_row _ _).trans hk
    | ⟨1, _⟩ => exact rhs_col _ _)
  rw [el, er]

/-- The bias row, re-cast to its own shape and repeated down the rows, read at an entry. -/
theorem bias_at (b : FVec Ideal S1x64 .f32) (j : S64x64.Idx) :
    broadcastTo S64x64 (shapeCast S1x64 b shapeCasts_S1x64_S1x64) broadcasts_S1x64_S64x64 j = b (biasAt j) := by
  rw [shapeCast_self]
  refine broadcastTo_apply b broadcasts_S1x64_S64x64 j (biasAt j) fun a => ?_
  match a with
  | ⟨0, _⟩ => rfl
  | ⟨1, _⟩ => rfl

/-- The body's one stored value at an entry. -/
theorem block_value (x : FVec Ideal S64x128 .f32) (w : FVec Ideal S128x64 .f32) (b : FVec Ideal S1x64 .f32) (j : S64x64.Idx) :
    k3_pay1 (F := Ideal) x w b j = max ((∑ k : Fin 128, x (rowOf j k) * w (colOf j k)) + b (biasAt j)) (FloatOps.ofBits (F := Ideal) .f32 0x00000000#32 : EReal) := by
  unfold k3_pay1
  refine (ValueIdx.maximumf_apply _ _ j).trans ?_
  refine congrArg₂ max ?_ rfl
  refine (ValueIdx.addf_apply _ _ j).trans ?_
  exact congrArg₂ (· + ·) (product_at x w j) (bias_at b j)

/-- Every window of this region has one block, the whole array, at the grid's one point. -/
theorem block_positions : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- The region's value as a function of its three input arrays, entry by entry. -/
abbrev valueOf (x : Cert.ReferenceIdeal.S64x128.Idx → EReal) (w : Cert.ReferenceIdeal.S128x64.Idx → EReal) (b : Cert.ReferenceIdeal.S1x64.Idx → EReal) :
    Cert.ReferenceIdeal.S64x64.Idx → EReal := fun i =>
  max ((∑ k : Fin 128, x (Cert.ReferenceIdeal.Read.lidx_main_v137 i k) * w (Cert.ReferenceIdeal.Read.ridx_main_v137 i k)) + b (Cert.ReferenceIdeal.Read.idx_main_v139 i)) (FloatOps.ofBits (F := Ideal) .f32 0x00000000#32 : EReal)

variable (V : (c : Dev nD) → (b : Ref sig .tc) → Buf (Elt Ideal) ((c : Thread nD τ).loc b))

/-- What the one grid point writes back is the whole value. -/
theorem written_block (c : Dev nD) (t : Fin cfg3.N) :
    (dat3 (F := Ideal) V c).flushed 3 t = ((cfg3.win 3).blk t).view.read (Elt Ideal)
      (valueOf (V c main_v136) (V c main_arg9) (V c main_v137)) := by
  show (cfg3.win 3).cut (grid3.coords t) ((dat3 V c).after 3 t) = _
  rw [after3_3]
  unfold out3_3
  rw [View.canon_unit_zero zero_offsets]
  simp only [View.ld_unit_zero (S := S64x128) zero_offsets, View.ld_unit_zero (S := S128x64) zero_offsets, View.ld_unit_zero (S := S1x64) zero_offsets]
  funext j
  show k3_pay1 (F := Ideal) (iblk3 V c 0 t) (iblk3 V c 1 t) (iblk3 V c 2 t) j
      = valueOf (V c main_v136) (V c main_arg9) (V c main_v137) (((cfg3.win 3).blk t).view.emb j)
  refine (block_value (iblk3 V c 0 t) (iblk3 V c 1 t) (iblk3 V c 2 t) j).trans ?_
  obtain ⟨e0, e1, e2, e3, e4, e5, e6, e7⟩ := block_positions t
  refine congrArg₂ max ?_ rfl
  refine congrArg₂ (· + ·) (Finset.sum_congr rfl fun k _ => ?_) ?_
  · have hx : iblk3 V c 0 t (rowOf j k)
        = V c main_v136 (Cert.ReferenceIdeal.Read.lidx_main_v137 (((cfg3.win 3).blk t).view.emb j) k) := by
      show V c main_v136 (((cfg3.win 0).blk t).view.emb (rowOf j k)) = _
      refine congrArg (V c main_v136) (funext fun a => Fin.ext ?_)
      match a with
      | ⟨0, _⟩ => show win3_0.index t (0 : Fin 2) * 64 + 1 * (j 0).val = win3_3.index t (0 : Fin 2) * 64 + 1 * (j 0).val; omega
      | ⟨1, _⟩ => show win3_0.index t (1 : Fin 2) * 128 + 1 * k.val = k.val; omega
    have hw : iblk3 V c 1 t (colOf j k)
        = V c main_arg9 (Cert.ReferenceIdeal.Read.ridx_main_v137 (((cfg3.win 3).blk t).view.emb j) k) := by
      show V c main_arg9 (((cfg3.win 1).blk t).view.emb (colOf j k)) = _
      refine congrArg (V c main_arg9) (funext fun a => Fin.ext ?_)
      match a with
      | ⟨0, _⟩ => show win3_1.index t (0 : Fin 2) * 128 + 1 * k.val = k.val; omega
      | ⟨1, _⟩ => show win3_1.index t (1 : Fin 2) * 64 + 1 * (j 1).val = win3_3.index t (1 : Fin 2) * 64 + 1 * (j 1).val; omega
    rw [hx, hw]
  · show V c main_v137 (((cfg3.win 2).blk t).view.emb (biasAt j)) = _
    refine congrArg (V c main_v137) (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega

/-- An entry of the output array lies in the one block exactly when each coordinate lies in the block's range. -/
theorem in_block (t : Fin cfg3.N) (i : S64x64.Idx) :
    i ∈ ((cfg3.win 3).blk t).view.set ↔ ∀ a : Fin 2, win3_3.index t a * S64x64.size a ≤ (i a).val ∧ (i a).val < win3_3.index t a * S64x64.size a + S64x64.size a := by
  show i ∈ ((View.whole main_v138).slice (win3_3.rect t)).set ↔ _
  rw [View.set_slice_whole, Rect.mem_set_unit]
  exact Iff.rfl

/-- The grid has a point. -/
theorem a_point : ∃ t : Fin cfg3.N, win3_3.index t = ![0, 0] :=
  (by decide +kernel : ∃ t : Fin grid3.N, win3_3.index t = ![0, 0])

/-- Every entry of the output is written by that point. -/
theorem covered (i : S64x64.Idx) :
    ∃ t : Fin cfg3.N, (cfg3.win 3).flush t = true ∧ i ∈ ((cfg3.win 3).blk t).view.set := by
  have hi0 : (i 0).val < 64 := (i 0).isLt
  have hi1 : (i 1).val < 64 := (i 1).isLt
  obtain ⟨t, ht⟩ := a_point
  have q0 : win3_3.index t (0 : Fin 2) = 0 := congrFun ht 0
  have q1 : win3_3.index t (1 : Fin 2) = 0 := congrFun ht 1
  refine ⟨t, flush3_3 t, ?_⟩
  rw [in_block]
  intro a
  match a with
  | ⟨0, _⟩ => show win3_3.index t (0 : Fin 2) * 64 ≤ (i 0).val ∧ (i 0).val < win3_3.index t (0 : Fin 2) * 64 + 64; omega
  | ⟨1, _⟩ => show win3_3.index t (1 : Fin 2) * 64 ≤ (i 1).val ∧ (i 1).val < win3_3.index t (1 : Fin 2) * 64 + 64; omega

/-- After the region the output array is that value of the three arrays as the region found them. -/
theorem whole_value (c : Dev nD) :
    (dat3 (F := Ideal) V c).arrAt 3 cfg3.N = valueOf (V c main_v136) (V c main_arg9) (V c main_v137) :=
  (dat3 V c).arrAt_eq_of_cover 3 _ (fun t _ => written_block V c t) covered

end Cert.KernelIdeal.HiddenHead

end
-- ==== Proof.OutputHead.lean ====
/-
  The last region of the readout head, read as one whole-array function.

  The grid has a single point. It loads the 64 × 64 hidden features, the 64 × 1 weight column and the bias as a 1 × 1
  array, multiplies the first two (both narrowed to bf16, the identity at the ideal instance; accumulator zero) and
  adds the bias to every row. So entry `(g, 0)` of the output is `∑ k, z (g, k) · w (k, 0) + b (0, 0)` over the
  extended reals, and the one block is the whole array.
-/
import proofs.«134181_j83004537962759_1_alg».proof.Proof.Gen.KernelIdeal.Frame
import proofs.«134181_j83004537962759_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.OutputHead

open Idealize.ShloMosaic Idealize.ShloMosaic.TcCoe Idealize.SL.Sem
open Cert.KernelIdeal Cert.KernelIdeal.Gen
open Idealize.ShloMosaic.Pipeline (Dat Cfg Window)

theorem zero_offsets : (![0, 0] : Fin 2 → Nat) = fun _ => 0 := funext fun a => by fin_cases a <;> rfl

/-- Entry `(g, k)` of the left operand. -/
abbrev rowOf (j : S64x1.Idx) (k : Fin 64) : S64x64.Idx := fun a => match a with
  | ⟨0, _⟩ => ⟨(j 0).val, (j 0).isLt⟩
  | ⟨1, _⟩ => ⟨k.val, k.isLt⟩
/-- Entry `(k, n)` of the weight matrix. -/
abbrev colOf (j : S64x1.Idx) (k : Fin 64) : S64x1.Idx := fun a => match a with
  | ⟨0, _⟩ => ⟨k.val, k.isLt⟩
  | ⟨1, _⟩ => ⟨(j 1).val, (j 1).isLt⟩
/-- The bias row's entry under column `n`. -/
abbrev biasAt (j : S64x1.Idx) : S1x1.Idx := fun a => match a with
  | ⟨0, _⟩ => ⟨0, Nat.one_pos⟩
  | ⟨1, _⟩ => ⟨0, Nat.one_pos⟩

/-- The left operand's row coordinate at an output entry is the entry's row. -/
theorem lhs_row (j : S64x1.Idx) (q : dot_S64x64_S64x1_S64x1_1_0_0_1_n_n.contr.Idx) : (dot_S64x64_S64x1_S64x1_1_0_0_1_n_n.lhsIdx j q 0).val = (j 0).val := by
  unfold DotDims.lhsIdx
  rw [dif_neg (show ¬(0 : Fin S64x64.rank) ∈ dot_S64x64_S64x1_S64x1_1_0_0_1_n_n.lhsBatch by decide), dif_pos (show (0 : Fin S64x64.rank) ∈ dot_S64x64_S64x1_S64x1_1_0_0_1_n_n.lhsNonContracting by decide)]
  rfl
/-- Its column coordinate is the contracted one. -/
theorem lhs_col (j : S64x1.Idx) (q : dot_S64x64_S64x1_S64x1_1_0_0_1_n_n.contr.Idx) : (dot_S64x64_S64x1_S64x1_1_0_0_1_n_n.lhsIdx j q 1).val = (q ⟨0, by decide⟩).val :=
  dot_S64x64_S64x1_S64x1_1_0_0_1_n_n.lhsIdx_val_of_single rfl j q
/-- The right operand's row coordinate is the contracted one. -/
theorem rhs_row (j : S64x1.Idx) (q : dot_S64x64_S64x1_S64x1_1_0_0_1_n_n.contr.Idx) : (dot_S64x64_S64x1_S64x1_1_0_0_1_n_n.rhsIdx j q 0).val = (q ⟨0, by decide⟩).val :=
  dot_S64x64_S64x1_S64x1_1_0_0_1_n_n.rhsIdx_val_of_single rfl j q
/-- Its column coordinate is the entry's column. -/
theorem rhs_col (j : S64x1.Idx) (q : dot_S64x64_S64x1_S64x1_1_0_0_1_n_n.contr.Idx) : (dot_S64x64_S64x1_S64x1_1_0_0_1_n_n.rhsIdx j q 1).val = (j 1).val := by
  unfold DotDims.rhsIdx
  rw [dif_neg (show ¬(1 : Fin S64x1.rank) ∈ dot_S64x64_S64x1_S64x1_1_0_0_1_n_n.rhsBatch by decide), dif_pos (show (1 : Fin S64x1.rank) ∈ dot_S64x64_S64x1_S64x1_1_0_0_1_n_n.rhsNonContracting by decide)]
  rfl

/-- The product part of the body at an entry: the sum over the 64 contracted columns. -/
theorem product_at (x : FVec Ideal S64x64 .f32) (w : FVec Ideal S64x1 .f32) (j : S64x1.Idx) :
    FloatOps.matmul dot_S64x64_S64x1_S64x1_1_0_0_1_n_n none (truncf .bf16 (shapeCast S64x64 x shapeCasts_S64x64_S64x64) bitsLt_bf16_f32)
      (truncf .bf16 w bitsLt_bf16_f32) (constant S64x1 .f32 0x00000000#32) j
      = ∑ k : Fin 64, x (rowOf j k) * w (colOf j k) := by
  refine (Ideal.matmul_constant_zero_apply dot_S64x64_S64x1_S64x1_1_0_0_1_n_n none
    (truncf .bf16 (shapeCast S64x64 x shapeCasts_S64x64_S64x64) bitsLt_bf16_f32) (truncf .bf16 w bitsLt_bf16_f32) j).trans ?_
  show ∑ q : dot_S64x64_S64x1_S64x1_1_0_0_1_n_n.contr.Idx, shapeCast S64x64 x shapeCasts_S64x64_S64x64 (dot_S64x64_S64x1_S64x1_1_0_0_1_n_n.lhsIdx j q) * w (dot_S64x64_S64x1_S64x1_1_0_0_1_n_n.rhsIdx j q) = _
  rw [shapeCast_self, ← Equiv.sum_comp (ValueIdx.contrEquiv1 dot_S64x64_S64x1_S64x1_1_0_0_1_n_n 64 rfl rfl).symm]
  refine Finset.sum_congr rfl fun k _ => ?_
  have hk := ValueIdx.contrEquiv1_symm_val dot_S64x64_S64x1_S64x1_1_0_0_1_n_n 64 rfl rfl k
  have el : dot_S64x64_S64x1_S64x1_1_0_0_1_n_n.lhsIdx j ((ValueIdx.contrEquiv1 dot_S64x64_S64x1_S64x1_1_0_0_1_n_n 64 rfl rfl).symm k) = rowOf j k := funext fun a => Fin.ext (by
    match a with
    | ⟨0, _⟩ => exact lhs_row _ _
    | ⟨1, _⟩ => exact (lhs_col _ _).trans hk)
  have er : dot_S64x64_S64x1_S64x1_1_0_0_1_n_n.rhsIdx j ((ValueIdx.contrEquiv1 dot_S64x64_S64x1_S64x1_1_0_0_1_n_n 64 rfl rfl).symm k) = colOf j k := funext fun a => Fin.ext (by
    match a with
    | ⟨0, _⟩ => exact (rhs_row _ _).trans hk
    | ⟨1, _⟩ => exact rhs_col _ _)
  rw [el, er]

/-- The bias row, re-cast to its own shape and repeated down the rows, read at an entry. -/
theorem bias_at (b : FVec Ideal S1x1 .f32) (j : S64x1.Idx) :
    broadcastTo S64x1 (shapeCast S1x1 b shapeCasts_S1x1_S1x1) broadcasts_S1x1_S64x1 j = b (biasAt j) := by
  rw [shapeCast_self]
  refine broadcastTo_apply b broadcasts_S1x1_S64x1 j (biasAt j) fun a => ?_
  match a with
  | ⟨0, _⟩ => rfl
  | ⟨1, _⟩ => rfl

/-- The body's one stored value at an entry. -/
theorem block_value (x : FVec Ideal S64x64 .f32) (w : FVec Ideal S64x1 .f32) (b : FVec Ideal S1x1 .f32) (j : S64x1.Idx) :
    k4_pay1 (F := Ideal) x w b j = (∑ k : Fin 64, x (rowOf j k) * w (colOf j k)) + b (biasAt j) := by
  unfold k4_pay1
  refine (ValueIdx.addf_apply _ _ j).trans ?_
  exact congrArg₂ (· + ·) (product_at x w j) (bias_at b j)

/-- Every window of this region has one block, the whole array, at the grid's one point. -/
theorem block_positions : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The region's value as a function of its three input arrays, entry by entry. -/
abbrev valueOf (x : Cert.ReferenceIdeal.S64x64.Idx → EReal) (w : Cert.ReferenceIdeal.S64x1.Idx → EReal) (b : Cert.ReferenceIdeal.S1x1.Idx → EReal) :
    Cert.ReferenceIdeal.S64x1.Idx → EReal := fun i =>
  (∑ k : Fin 64, x (Cert.ReferenceIdeal.Read.lidx_main_v142 i k) * w (Cert.ReferenceIdeal.Read.ridx_main_v142 i k)) + b (Cert.ReferenceIdeal.Read.idx_main_v144 i)

variable (V : (c : Dev nD) → (b : Ref sig .tc) → Buf (Elt Ideal) ((c : Thread nD τ).loc b))

/-- What the one grid point writes back is the whole value. -/
theorem written_block (c : Dev nD) (t : Fin cfg4.N) :
    (dat4 (F := Ideal) V c).flushed 3 t = ((cfg4.win 3).blk t).view.read (Elt Ideal)
      (valueOf (V c main_v138) (V c main_arg11) (V c main_v139)) := by
  show (cfg4.win 3).cut (grid4.coords t) ((dat4 V c).after 3 t) = _
  rw [after4_3]
  unfold out4_3
  rw [View.canon_unit_zero zero_offsets]
  simp only [View.ld_unit_zero (S := S64x64) zero_offsets, View.ld_unit_zero (S := S64x1) zero_offsets, View.ld_unit_zero (S := S1x1) zero_offsets]
  funext j
  show k4_pay1 (F := Ideal) (iblk4 V c 0 t) (iblk4 V c 1 t) (iblk4 V c 2 t) j
      = valueOf (V c main_v138) (V c main_arg11) (V c main_v139) (((cfg4.win 3).blk t).view.emb j)
  refine (block_value (iblk4 V c 0 t) (iblk4 V c 1 t) (iblk4 V c 2 t) j).trans ?_
  obtain ⟨e0, e1, e2, e3, e4, e5, e6, e7⟩ := block_positions t
  refine congrArg₂ (· + ·) (Finset.sum_congr rfl fun k _ => ?_) ?_
  · have hx : iblk4 V c 0 t (rowOf j k)
        = V c main_v138 (Cert.ReferenceIdeal.Read.lidx_main_v142 (((cfg4.win 3).blk t).view.emb j) k) := by
      show V c main_v138 (((cfg4.win 0).blk t).view.emb (rowOf j k)) = _
      refine congrArg (V c main_v138) (funext fun a => Fin.ext ?_)
      match a with
      | ⟨0, _⟩ => show win4_0.index t (0 : Fin 2) * 64 + 1 * (j 0).val = win4_3.index t (0 : Fin 2) * 64 + 1 * (j 0).val; omega
      | ⟨1, _⟩ => show win4_0.index t (1 : Fin 2) * 64 + 1 * k.val = k.val; omega
    have hw : iblk4 V c 1 t (colOf j k)
        = V c main_arg11 (Cert.ReferenceIdeal.Read.ridx_main_v142 (((cfg4.win 3).blk t).view.emb j) k) := by
      show V c main_arg11 (((cfg4.win 1).blk t).view.emb (colOf j k)) = _
      refine congrArg (V c main_arg11) (funext fun a => Fin.ext ?_)
      match a with
      | ⟨0, _⟩ => show win4_1.index t (0 : Fin 2) * 64 + 1 * k.val = k.val; omega
      | ⟨1, _⟩ => show win4_1.index t (1 : Fin 2) * 1 + 1 * (j 1).val = win4_3.index t (1 : Fin 2) * 1 + 1 * (j 1).val; omega
    rw [hx, hw]
  · show V c main_v139 (((cfg4.win 2).blk t).view.emb (biasAt j)) = _
    refine congrArg (V c main_v139) (funext fun a => Fin.ext ?_)
    match a with
    | ⟨0, _⟩ => show win4_2.index t (0 : Fin 2) * 1 + 1 * 0 = 0; omega
    | ⟨1, _⟩ => show win4_2.index t (1 : Fin 2) * 1 + 1 * 0 = 0; omega

/-- An entry of the output array lies in the one block exactly when each coordinate lies in the block's range. -/
theorem in_block (t : Fin cfg4.N) (i : S64x1.Idx) :
    i ∈ ((cfg4.win 3).blk t).view.set ↔ ∀ a : Fin 2, win4_3.index t a * S64x1.size a ≤ (i a).val ∧ (i a).val < win4_3.index t a * S64x1.size a + S64x1.size a := by
  show i ∈ ((View.whole main_v140).slice (win4_3.rect t)).set ↔ _
  rw [View.set_slice_whole, Rect.mem_set_unit]
  exact Iff.rfl

/-- The grid has a point. -/
theorem a_point : ∃ t : Fin cfg4.N, win4_3.index t = ![0, 0] :=
  (by decide +kernel : ∃ t : Fin grid4.N, win4_3.index t = ![0, 0])

/-- Every entry of the output is written by that point. -/
theorem covered (i : S64x1.Idx) :
    ∃ t : Fin cfg4.N, (cfg4.win 3).flush t = true ∧ i ∈ ((cfg4.win 3).blk t).view.set := by
  have hi0 : (i 0).val < 64 := (i 0).isLt
  have hi1 : (i 1).val < 1 := (i 1).isLt
  obtain ⟨t, ht⟩ := a_point
  have q0 : win4_3.index t (0 : Fin 2) = 0 := congrFun ht 0
  have q1 : win4_3.index t (1 : Fin 2) = 0 := congrFun ht 1
  refine ⟨t, flush4_3 t, ?_⟩
  rw [in_block]
  intro a
  match a with
  | ⟨0, _⟩ => show win4_3.index t (0 : Fin 2) * 64 ≤ (i 0).val ∧ (i 0).val < win4_3.index t (0 : Fin 2) * 64 + 64; omega
  | ⟨1, _⟩ => show win4_3.index t (1 : Fin 2) * 1 ≤ (i 1).val ∧ (i 1).val < win4_3.index t (1 : Fin 2) * 1 + 1; omega

/-- After the region the output array is that value of the three arrays as the region found them. -/
theorem whole_value (c : Dev nD) :
    (dat4 (F := Ideal) V c).arrAt 3 cfg4.N = valueOf (V c main_v138) (V c main_arg11) (V c main_v139) :=
  (dat4 V c).arrAt_eq_of_cover 3 _ (fun t _ => written_block V c t) covered

end Cert.KernelIdeal.OutputHead

end
-- ==== Proof.Readout.lean ====
/-
  The readout head, read against the reference's last stages.

  The fourth region turns the pooled graph features into hidden features: their product with the head's first
  weights, plus the first bias on every row, the maximum with zero. The reference computes the same hidden features by
  a `dot_general`, a broadcast of the bias vector down the rows, an addition and a maximum with a broadcast zero:
  entry by entry the same extended real. The last region multiplies the hidden features by the last weight column and
  adds the last bias; the reference does so by a `dot_general`, a broadcast and an addition. So the program's result
  buffer holds the reference's result stage as a function of the launch arrays.
-/
import proofs.«134181_j83004537962759_1_alg».proof.Proof.Gen.KernelIdeal.Frame
import proofs.«134181_j83004537962759_1_alg».proof.Proof.Gen.ReferenceIdeal.Read
import proofs.«134181_j83004537962759_1_alg».proof.Proof.Carried
import proofs.«134181_j83004537962759_1_alg».proof.Proof.Pooling
import proofs.«134181_j83004537962759_1_alg».proof.Proof.BiasRows
import proofs.«134181_j83004537962759_1_alg».proof.Proof.HiddenHead
import proofs.«134181_j83004537962759_1_alg».proof.Proof.OutputHead

set_option maxRecDepth 16384

noncomputable section

namespace Cert.KernelIdeal.Readout

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The hidden features after the fourth region are the reference's, entry by entry. -/
theorem hidden (c : Dev nD) :
    W12 (F := Ideal) m ρ c (Proc.devRef .tc main_v138)
      = Cert.ReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 3).trans ?_
  refine (Cert.KernelIdeal.HiddenHead.whole_value (V11 m ρ) c).trans ?_
  have e : Cert.KernelIdeal.HiddenHead.valueOf (V11 m ρ c main_v136) (V11 m ρ c main_arg9) (V11 m ρ c main_v137)
      = Cert.KernelIdeal.HiddenHead.valueOf (Cert.ReferenceIdeal.Read.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))
          (fun j => (m ((c : Thread nD τ).loc main_arg10)) (Cert.ReferenceIdeal.Read.idx_main_v138 j)) :=
    congr (congrArg₂ Cert.KernelIdeal.HiddenHead.valueOf (Cert.KernelIdeal.Pooling.pooled m ρ c) (Cert.KernelIdeal.Carried.arg9_at_11 m ρ c))
      (funext (Cert.KernelIdeal.BiasRows.first_bias_row m ρ c))
  refine e.trans ?_
  funext i
  rw [Cert.ReferenceIdeal.Read.val_main_v141_apply, Cert.ReferenceIdeal.Read.val_main_v140_apply, Cert.ReferenceIdeal.Read.val_main_v137_apply, Cert.ReferenceIdeal.Read.val_main_v139_apply,
    Cert.ReferenceIdeal.Read.val_main_v138_apply, Cert.ReferenceIdeal.Read.val_main_call3_v0_apply, Cert.ReferenceIdeal.Read.val_main_call3_cst_apply]
  rfl

/-- The result after the last region is the reference's, entry by entry. -/
theorem output (c : Dev nD) :
    W14 (F := Ideal) m ρ c (Proc.devRef .tc main_v140)
      = Cert.ReferenceIdeal.Read.val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W14_arr m ρ c 3).trans ?_
  refine (Cert.KernelIdeal.OutputHead.whole_value (V13 m ρ) c).trans ?_
  have e : Cert.KernelIdeal.OutputHead.valueOf (V13 m ρ c main_v138) (V13 m ρ c main_arg11) (V13 m ρ c main_v139)
      = Cert.KernelIdeal.OutputHead.valueOf (Cert.ReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11))
          (fun j => (m ((c : Thread nD τ).loc main_arg12)) (Cert.ReferenceIdeal.Read.idx_main_v143 j)) :=
    congr (congrArg₂ Cert.KernelIdeal.OutputHead.valueOf ((Cert.KernelIdeal.Carried.hidden_at_13 m ρ c).trans (hidden m ρ c)) (Cert.KernelIdeal.Carried.arg11_at_13 m ρ c))
      (funext (Cert.KernelIdeal.BiasRows.last_bias m ρ c))
  refine e.trans ?_
  funext i
  rw [Cert.ReferenceIdeal.Read.val_main_v145_apply, Cert.ReferenceIdeal.Read.val_main_v142_apply, Cert.ReferenceIdeal.Read.val_main_v144_apply, Cert.ReferenceIdeal.Read.val_main_v143_apply]
  rfl

end Cert.KernelIdeal.Readout

end
-- ==== Proof.lean ====
/-
  The claims for a three-layer graph-convolution network with a mean pool over graphs and a two-layer readout head.

  The kernel program and the reference compute the same network. From the edge list both form the normalisation
  `dis = rsqrt (in-degree + 1)`. Each convolution layer multiplies its input by a weight matrix, gathers the product's
  rows at the edge sources, scales them by `dis[src] · dis[dst]`, scatter-adds them into the destination rows, adds
  the self-loop term `h · dis²` and a bias, and takes the maximum with zero. The activations are summed per graph and
  divided by the graph's node count (at least one); a head of two affine maps with a maximum with zero between them
  gives one number per graph.

  The two programs differ only in how the five matrix products are computed. The reference has one `dot_general`
  each. The kernel program has a region each: the three layer products are tiled over ten blocks of 5000 rows with
  the whole contraction in every block, the two head products are one block, and the head regions also add the bias
  (and take the maximum with zero) inside the region. Before each product both operands are narrowed to bf16, which
  at the ideal instance is the identity, and the accumulator starts at zero; so every entry of every product is the
  same sum over the contracted axis on both sides, and since the blocks tile the rows each region's output array is
  the reference's product of the same arrays. Everything else is the same host operation applied to the same
  operands, so buffer by buffer the kernel program's contents are the reference's stages, up to the result. No law of
  arithmetic beyond the definition of the product as a sum is used, and the finiteness of the inputs is not needed.

  The frames of the two kernel programs are the generated ones; the reference's frame is its generated run with the
  result dropped; the idealization rewrote no operation, so its claim is trivial.
-/
import proofs.«134181_j83004537962759_1_alg».proof.Defs
import proofs.«134181_j83004537962759_1_alg».proof.Proof.Gen.Kernel
import proofs.«134181_j83004537962759_1_alg».proof.Proof.Gen.Kernel.Frame
import proofs.«134181_j83004537962759_1_alg».proof.Proof.Gen.KernelIdeal
import proofs.«134181_j83004537962759_1_alg».proof.Proof.Gen.KernelIdeal.Frame
import proofs.«134181_j83004537962759_1_alg».proof.Proof.Gen.ReferenceIdeal
import proofs.«134181_j83004537962759_1_alg».proof.Proof.Gen.Pre_finite_inputs
import proofs.«134181_j83004537962759_1_alg».proof.Proof.Gen.ReferenceIdeal.Run
import proofs.«134181_j83004537962759_1_alg».proof.Proof.Gen.ReferenceIdeal.Read
import proofs.«134181_j83004537962759_1_alg».proof.Proof.WholeRun
import proofs.«134181_j83004537962759_1_alg».proof.Proof.Readout
import Idealize.ShloMosaic.Adequacy
import Idealize.ShloMosaic.Init

noncomputable section

namespace Cert.Proof

open Idealize.ShloMosaic Idealize.ShloMosaic.TcCoe Idealize.SL.Sem

/-- At the ideal instance the kernel program's result buffer ends at the last boundary's contents, which are the
    reference's result stage of the launch arrays; the reference's run ends at the same stage of arrays that agree
    with them. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  by
    intro m ρ m' ρ' _ hagree
    refine ⟨fun c => Cert.KernelIdeal.Gen.W14 (F := Ideal) m ρ c (Proc.devRef .tc Cert.KernelIdeal.main_v140),
      Cert.KernelIdeal.WholeRun.run (F := Ideal) m ρ, ?_⟩
    refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v145_eq, h0, h1, h2, h3, h4, h5, h6, h7, h8, h9, h10, h11, h12]
    exact (Cert.KernelIdeal.Readout.output m ρ c).symm⟩

end Cert.Proof

end
